-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S16x1024 : S_.BroadcastsInDim S16x1024 (![] : Fin 0 → Fin S16x1024.rank)
  reducesTo_S16x1024_S_d0_1 : S16x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part2 {F : FTy → Type} [FloatOps F] (main_arg7 : FVec F S16x1024 .f32) (main_arg8 : FVec F S1024x16 .f32) (main_v33 : IVec S_ 1) : IVec S_ 1 :=
  let main_v34 : FVec F S16x1024 .f32 := Host.absf main_arg7
  let main_cst_12 : FVec F S_ .f32 := constant S_ .f32 0x7F800000#32
  let main_v35 : FVec F S16x1024 .f32 := broadcastInDim S16x1024 ![] bcast_S_S16x1024 main_cst_12
  let main_v36 : IVec S16x1024 1 := cmpf .olt main_v34 main_v35
  let main_c_13 : IVec S_ 1 := constantI S_ 1 1#1
  let main_v37 : IVec S_ 1 := (fun x v => Host.reduce IntOp.andi x v reducesTo_S16x1024_S_d0_1 h_S_) main_v36 main_c_13
  let main_v38 : IVec S_ 1 := andi main_v33 main_v37
  let main_v39 : FVec F S1024x16 .f32 := Host.absf main_arg8
  let main_cst_14 : FVec F S_ .f32 := constant S_ .f32 0x7F800000#32
  let main_v40 : FVec F S1024x16 .f32 := broadcastInDim S1024x16 ![] bcast_S_S1024x16 main_cst_14
  let main_v41 : IVec S1024x16 1 := cmpf .olt main_v39 main_v40
  let main_c_15 : IVec S_ 1 := constantI S_ 1 1#1
  let main_v42 : IVec S_ 1 := (fun x v => Host.reduce IntOp.andi x v reducesTo_S1024x16_S_d0_1 h_S_) main_v41 main_c_15
  let main_v43 : IVec S_ 1 := andi main_v38 main_v42
  main_v43

def fn_part1 {F : FTy → Type} [FloatOps F] (main_arg4 : FVec F S1024x16 .f32) (main_arg5 : FVec F S16x1024 .f32) (main_arg6 : FVec F S1024x16 .f32) (main_arg7 : FVec F S16x1024 .f32) (main_arg8 : FVec F S1024x16 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  let main_v24 : FVec F S16x1024 .f32 := Host.absf main_arg5
  let main_cst_8 : FVec F S_ .f32 := constant S_ .f32 0x7F800000#32
  let main_v25 : FVec F S16x1024 .f32 := broadcastInDim S16x1024 ![] bcast_S_S16x1024 main_cst_8
  let main_v26 : IVec S16x1024 1 := cmpf .olt main_v24 main_v25
  let main_c_9 : IVec S_ 1 := constantI S_ 1 1#1
  let main_v27 : IVec S_ 1 := (fun x v => Host.reduce IntOp.andi x v reducesTo_S16x1024_S_d0_1 h_S_) main_v26 main_c_9
  let main_v28 : IVec S_ 1 := andi main_v23 main_v27
  let main_v29 : FVec F S1024x16 .f32 := Host.absf main_arg6
  let main_cst_10 : FVec F S_ .f32 := constant S_ .f32 0x7F800000#32
  let main_v30 : FVec F S1024x16 .f32 := broadcastInDim S1024x16 ![] bcast_S_S1024x16 main_cst_10
  let main_v31 : IVec S1024x16 1 := cmpf .olt main_v29 main_v30
  let main_c_11 : IVec S_ 1 := constantI S_ 1 1#1
  let main_v32 : IVec S_ 1 := (fun x v => Host.reduce IntOp.andi x v reducesTo_S1024x16_S_d0_1 h_S_) main_v31 main_c_11
  let main_v33 : IVec S_ 1 := andi main_v28 main_v32
  fn_part2 (F := F) main_arg7 main_arg8 main_v33

def fn {F : FTy → Type} [FloatOps F] (main_arg0 : FVec F S8x2048x1024 .f32) (main_arg1 : FVec F S3072x1024 .f32) (main_arg2 : FVec F S3072 .f32) (main_arg3 : FVec F S16x1024 .f32) (main_arg4 : FVec F S1024x16 .f32) (main_arg5 : FVec F S16x1024 .f32) (main_arg6 : FVec F S1024x16 .f32) (main_arg7 : FVec F S16x1024 .f32) (main_arg8 : FVec F S1024x16 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_arg5 main_arg6 main_arg7 main_arg8 main_v13 main_v16
-- ==== Kernel.lean ====
abbrev S8x2048x1024 : Shape := ⟨3, ![8, 2048, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S16384x1024 : Shape := ⟨2, ![16384, 1024]⟩
abbrev S1024x3072 : Shape := ⟨2, ![1024, 3072]⟩
abbrev S48x1024 : Shape := ⟨2, ![48, 1024]⟩
abbrev S_ : Shape := ⟨0, ![]⟩
abbrev S128x1024 : Shape := ⟨2, ![128, 1024]⟩
abbrev S1024x128 : Shape := ⟨2, ![1024, 128]⟩
abbrev S16x3072 : Shape := ⟨2, ![16, 3072]⟩
abbrev S48x3072 : Shape := ⟨2, ![48, 3072]⟩
abbrev S128x3072 : Shape := ⟨2, ![128, 3072]⟩
abbrev S1x3072 : Shape := ⟨2, ![1, 3072]⟩
abbrev S16384x3072 : Shape := ⟨2, ![16384, 3072]⟩
abbrev S512x1024 : Shape := ⟨2, ![512, 1024]⟩
abbrev S512x3072 : Shape := ⟨2, ![512, 3072]⟩
abbrev S512x128 : Shape := ⟨2, ![512, 128]⟩
abbrev S8x2048x3072 : Shape := ⟨3, ![8, 2048, 3072]⟩

abbrev nBuf : Space → Nat
  | .hbm => 37
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S3072x1024, .f32⟩
  | .hbm, ⟨2, _⟩ => ⟨S3072, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S16x1024, .f32⟩
  | .hbm, ⟨8, _⟩ => ⟨S1024x16, .f32⟩
  | .hbm, ⟨9, _⟩ => ⟨S16384x1024, .f32⟩
  | .hbm, ⟨10, _⟩ => ⟨S1024x3072, .f32⟩
  | .hbm, ⟨11, _⟩ => ⟨S1024x3072, .bf16⟩
  | .hbm, ⟨12, _⟩ => ⟨S48x1024, .f32⟩
  | .hbm, ⟨13, _⟩ => ⟨S_, .i32⟩
  | .hbm, ⟨14, _⟩ => ⟨S_, .f32⟩
  | .hbm, ⟨15, _⟩ => ⟨S128x1024, .f32⟩
  | .hbm, ⟨16, _⟩ => ⟨S1024x128, .f32⟩
  | .hbm, ⟨17, _⟩ => ⟨S1024x128, .bf16⟩
  | .hbm, ⟨18, _⟩ => ⟨S_, .f32⟩
  | .hbm, ⟨19, _⟩ => ⟨S16x1024, .f32⟩
  | .hbm, ⟨20, _⟩ => ⟨S16x1024, .f32⟩
  | .hbm, ⟨21, _⟩ => ⟨S16x3072, .f32⟩
  | .hbm, ⟨22, _⟩ => ⟨S16x1024, .f32⟩
  | .hbm, ⟨23, _⟩ => ⟨S16x3072, .f32⟩
  | .hbm, ⟨24, _⟩ => ⟨S16x1024, .f32⟩
  | .hbm, ⟨25, _⟩ => ⟨S16x3072, .f32⟩
  | .hbm, ⟨26, _⟩ => ⟨S48x3072, .f32⟩
  | .hbm, ⟨27, _⟩ => ⟨S_, .f32⟩
  | .hbm, ⟨28, _⟩ => ⟨S48x3072, .f32⟩
  | .hbm, ⟨29, _⟩ => ⟨S48x3072, .f32⟩
  | .hbm, ⟨30, _⟩ => ⟨S_, .i32⟩
  | .hbm, ⟨31, _⟩ => ⟨S_, .f32⟩
  | .hbm, ⟨32, _⟩ => ⟨S128x3072, .f32⟩
  | .hbm, ⟨33, _⟩ => ⟨S128x3072, .bf16⟩
  | .hbm, ⟨34, _⟩ => ⟨S1x3072, .f32⟩
  | .hbm, ⟨35, _⟩ => ⟨S16384x3072, .f32⟩
  | .hbm, ⟨36, _⟩ => ⟨S8x2048x3072, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1024x128, .bf16⟩
  | .local _ .vmem, ⟨4, _⟩ => ⟨S128x3072, .bf16⟩
  | .local _ .vmem, ⟨5, _⟩ => ⟨S1x3072, .f32⟩
  | .local _ .vmem, ⟨6, _⟩ => ⟨S512x3072, .f32⟩
  | .local _ .vmem, ⟨7, _⟩ => ⟨S512x3072, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_call1_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x2048x1024_S16384x1024 : S8x2048x1024.ShapeCasts S16384x1024
  transposes_S3072x1024_S1024x3072_1_0 : S3072x1024.Transposes [1, 0] S1024x3072
  bitsLt_bf16_f32 : FTy.bits .bf16 < FTy.bits .f32
  concatenates_S16x1024_S16x1024_S16x1024_S48x1024_d0 : Shape.Concatenates [S16x1024, S16x1024, S16x1024] S48x1024 0
  pads_S48x1024_S128x1024_0800_000 : S48x1024.Pads (![0, 0] : Fin 2 → Nat) ![80, 0] ![0, 0] S128x1024
  h_S_ : 0 < S_.numel
  transposes_S128x1024_S1024x128_1_0 : S128x1024.Transposes [1, 0] S1024x128
  bcast_S_S16x1024 : S_.BroadcastsInDim S16x1024 (![] : Fin 0 → Fin S16x1024.rank)
  transposes_S1024x16_S16x1024_1_0 : S1024x16.Transposes [1, 0] S16x1024
  concatenates_S16x1024_S16x1024_S16x1024_S16x3072_d1 : Shape.Concatenates [S16x1024, S16x1024, S16x1024] S16x3072 1
  concatenates_S16x3072_S16x3072_S16x3072_S48x3072_d0 : Shape.Concatenates [S16x3072, S16x3072, S16x3072] S48x3072 0
  bcast_S_S48x3072 : S_.BroadcastsInDim S48x3072 (![] : Fin 0 → Fin S48x3072.rank)
  pads_S48x3072_S128x3072_0800_000 : S48x3072.Pads (![0, 0] : Fin 2 → Nat) ![80, 0] ![0, 0] S128x3072
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x3072_S128x3072_0_0 : ∀ a, (![0, 0] : Fin 2 → Nat) a + S128x3072.size a ≤ S128x3072.size a
  h_S128x3072 : 0 < S128x3072.numel
  shapeCasts_S128x3072_S128x3072 : S128x3072.ShapeCasts S128x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  shapeCasts_S16384x3072_S8x2048x3072 : S16384x3072.ShapeCasts S8x2048x3072
  dot_S512x1024_S1024x3072_S512x3072_1_0_0_1_n_n_wf : DotDims.WF S512x1024 S1024x3072 S512x3072 [1] [0] [0] [1] [] []
  dot_S512x1024_S1024x128_S512x128_1_0_0_1_n_n_wf : DotDims.WF S512x1024 S1024x128 S512x128 [1] [0] [0] [1] [] []
  dot_S512x128_S128x3072_S512x3072_1_0_0_1_n_n_wf : DotDims.WF S512x128 S128x3072 S512x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .bf16 = 32 ∨ (Rect.block (s := S1024x128) S1024x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x3072.size a ≤ S128x3072.size a
  hwx0_3 : ∀ i : grid0.Coords, EltTy.bits .bf16 = 32 ∨ (Rect.block (s := S128x3072) S128x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3072.size a ≤ S1x3072.size a
  hwx0_4 : ∀ i : grid0.Coords, EltTy.bits .f32 = 32 ∨ (Rect.block (s := S1x3072) S1x3072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x3072.size a ≤ S16384x3072.size a
  hwx0_5 : ∀ i : grid0.Coords, EltTy.bits .f32 = 32 ∨ (Rect.block (s := S16384x3072) S512x3072.size (cc0_transform_5 i) (hinb0_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x128_S128x3072_S512x3072_1_0_0_1_n_n : DotDims S512x128 S128x3072 S512x3072 where
  lhsContracting := [1]
  rhsContracting := [0]
  lhsNonContracting := [0]
  rhsNonContracting := [1]
  lhsBatch := []
  rhsBatch := []
  wf := dot_S512x128_S128x3072_S512x3072_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S512x3072.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S8x2048x3072 : Shape := ⟨3, ![8, 2048, 3072]⟩
abbrev S1x1x3072 : Shape := ⟨3, ![1, 1, 3072]⟩
abbrev S8x2048x16 : Shape := ⟨3, ![8, 2048, 16]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S3072x1024, .f32⟩
  | .hbm, ⟨2, _⟩ => ⟨S3072, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S16x1024, .f32⟩
  | .hbm, ⟨8, _⟩ => ⟨S1024x16, .f32⟩
  | .hbm, ⟨9, _⟩ => ⟨S8x2048x3072, .f32⟩
  | .hbm, ⟨10, _⟩ => ⟨S1x1x3072, .f32⟩
  | .hbm, ⟨11, _⟩ => ⟨S8x2048x3072, .f32⟩
  | .hbm, ⟨12, _⟩ => ⟨S8x2048x3072, .f32⟩
  | .hbm, ⟨13, _⟩ => ⟨S8x2048x16, .f32⟩
  | .hbm, ⟨14, _⟩ => ⟨S8x2048x1024, .f32⟩
  | .hbm, ⟨15, _⟩ => ⟨S_, .f32⟩
  | .hbm, ⟨16, _⟩ => ⟨S8x2048x1024, .f32⟩
  | .hbm, ⟨17, _⟩ => ⟨S8x2048x1024, .f32⟩
  | .hbm, ⟨18, _⟩ => ⟨S8x2048x16, .f32⟩
  | .hbm, ⟨19, _⟩ => ⟨S8x2048x1024, .f32⟩
  | .hbm, ⟨20, _⟩ => ⟨S_, .f32⟩
  | .hbm, ⟨21, _⟩ => ⟨S8x2048x1024, .f32⟩
  | .hbm, ⟨22, _⟩ => ⟨S8x2048x1024, .f32⟩
  | .hbm, ⟨23, _⟩ => ⟨S8x2048x16, .f32⟩
  | .hbm, ⟨24, _⟩ => ⟨S8x2048x1024, .f32⟩
  | .hbm, ⟨25, _⟩ => ⟨S_, .f32⟩
  | .hbm, ⟨26, _⟩ => ⟨S8x2048x1024, .f32⟩
  | .hbm, ⟨27, _⟩ => ⟨S8x2048x1024, .f32⟩
  | .hbm, ⟨28, _⟩ => ⟨S8x2048x3072, .f32⟩
  | .hbm, ⟨29, _⟩ => ⟨S8x2048x3072, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S8x2048x3072_0_1_2 : S1x1x3072.BroadcastsInDim S8x2048x3072 (![0, 1, 2] : Fin 3 → Fin S8x2048x3072.rank)
  bcast_S_S8x2048x1024 : S_.BroadcastsInDim S8x2048x1024 (![] : Fin 0 → Fin S8x2048x1024.rank)
  concatenates_S8x2048x1024_S8x2048x1024_S8x2048x1024_S8x2048x3072_d2 : Shape.Concatenates [S8x2048x1024, S8x2048x1024, S8x2048x1024] S8x2048x3072 2
  dot_S8x2048x1024_S3072x1024_S8x2048x3072_2_1_01_0_n_n_wf : DotDims.WF S8x2048x1024 S3072x1024 S8x2048x3072 [2] [1] [0, 1] [0] [] []
  dot_S8x2048x1024_S16x1024_S8x2048x16_2_1_01_0_n_n_wf : DotDims.WF S8x2048x1024 S16x1024 S8x2048x16 [2] [1] [0, 1] [0] [] []
  dot_S8x2048x16_S1024x16_S8x2048x1024_2_1_01_0_n_n_wf : DotDims.WF S8x2048x16 S1024x16 S8x2048x1024 [2] [1] [0, 1] [0] [] []

variable [Facts₀]

def dot_S8x2048x1024_S3072x1024_S8x2048x3072_2_1_01_0_n_n : DotDims S8x2048x1024 S3072x1024 S8x2048x3072 where
  lhsContracting := [2]
  rhsContracting := [1]
  lhsNonContracting := [0, 1]
  rhsNonContracting := [0]
  lhsBatch := []
  rhsBatch := []
  wf := dot_S8x2048x1024_S3072x1024_S8x2048x3072_2_1_01_0_n_n_wf
def dot_S8x2048x1024_S16x1024_S8x2048x16_2_1_01_0_n_n : DotDims S8x2048x1024 S16x1024 S8x2048x16 where
  lhsContracting := [2]
  rhsContracting := [1]
  lhsNonContracting := [0, 1]
  rhsNonContracting := [0]
  lhsBatch := []
  rhsBatch := []
  wf := dot_S8x2048x1024_S16x1024_S8x2048x16_2_1_01_0_n_n_wf
def dot_S8x2048x16_S1024x16_S8x2048x1024_2_1_01_0_n_n : DotDims S8x2048x16 S1024x16 S8x2048x1024 where
  lhsContracting := [2]
  rhsContracting := [1]
  lhsNonContracting := [0, 1]
  rhsNonContracting := [0]
  lhsBatch := []
  rhsBatch := []
  wf := dot_S8x2048x16_S1024x16_S8x2048x1024_2_1_01_0_n_n_wf

class Facts : Prop extends Facts₀ where

variable [Facts]
-- ==== Proof.BodyDefsK.lean ====
/-
  What the kernel body leaves in its output buffer, as a value. The body loads each of its five input buffers through
  the whole-buffer rectangle, and stores once, over the whole output block, the payload `k0_pay1` of what it loaded.
-/
import proofs.«144425_j75041668595954_2_alg».proof.Proof.Gen.Kernel.Skeleton
import Idealize.ShloMosaic.Lib.Pipeline.FrameBody

set_option maxRecDepth 16384

noncomputable section

namespace Cert.Kernel.Hand

open Cert.Kernel Cert.Kernel.Gen
open Idealize.ShloMosaic Idealize.ShloMosaic.TcCoe Idealize.SL.Sem

variable {F : FTy → Type} [FloatOps F]

/-- The whole-buffer rectangles the body's five loads and its one store go through. -/
abbrev rIn0 : Rect S512x1024 := Rect.unit (s := S512x1024) ![0, 0] S512x1024.size Facts₀.inb_S512x1024_S512x1024_0_0
abbrev rIn1 : Rect S1024x3072 := Rect.unit (s := S1024x3072) ![0, 0] S1024x3072.size Facts₀.inb_S1024x3072_S1024x3072_0_0
abbrev rIn2 : Rect S1024x128 := Rect.unit (s := S1024x128) ![0, 0] S1024x128.size Facts₀.inb_S1024x128_S1024x128_0_0
abbrev rIn3 : Rect S128x3072 := Rect.unit (s := S128x3072) ![0, 0] S128x3072.size Facts₀.inb_S128x3072_S128x3072_0_0
abbrev rIn4 : Rect S1x3072 := Rect.unit (s := S1x3072) ![0, 0] S1x3072.size Facts₀.inb_S1x3072_S1x3072_0_0
abbrev rOut : Rect S512x3072 := Rect.unit (s := S512x3072) ![0, 0] S512x3072.size Facts₀.inb_S512x3072_S512x3072_0_0

/-- What the body leaves in the output buffer: its one store, over the whole block, of the payload of the five loads. -/
def out0_5 (x0 : Vec F S512x1024 .f32) (x1 : Vec F S1024x3072 .bf16) (x2 : Vec F S1024x128 .bf16) (x3 : Vec F S128x3072 .bf16) (x4 : Vec F S1x3072 .f32) : Vec F S512x3072 .f32 :=
  View.canon [⟨rOut, k0_pay1 (View.ld x0 rIn0) (View.ld x1 rIn1) (View.ld x2 rIn2) (View.ld x3 rIn3) (View.ld x4 rIn4)⟩]

/-- The one store covers the buffer. -/
theorem cover0_5 (p0 : Vec F S512x3072 .f32) (y : S512x3072.Idx) :
    ∃ pc ∈ ([⟨rOut, p0⟩] : List (View.Piece (Elt F) S512x3072 .f32)), y ∈ pc.1.set :=
  View.cover_of_tiled [⟨rOut, p0⟩] S512x3072.size (by rfl) y

end Cert.Kernel.Hand

end
-- ==== Proof.LaunchK.lean ====
/-
  The frame of this program — it runs to the end, faults nowhere, and leaves its nine argument arrays as they were —
  for one pipelined region between host lines, at any float instance.

  The program is: host lines that re-lay the arguments (a flattening, transposes, two stackings, two zero paddings, a
  scaling, casts), one pipelined region of 32 grid points, one host line that restores the token axes. No host line
  writes an argument array, and the region's six windows are over arrays the host lines made, none of them an argument.

  At grid point t the body is called on six staging buffers: windows 0–4 hold the point's input blocks (512 rows of the
  flattened activations, and the four whole operands, fetched once), window 5 is the output block. The body loads the
  five inputs whole, also loads the output buffer (whatever it holds; the value is not used), and stores one value over
  the whole output block: `k0_pay1` of the five inputs. So after the body the inputs' buffers are unchanged and the
  output buffer holds that payload; this is all the launch theorem needs (`dats`). This module holds the host side, the windows' blocks and that proof data.
-/
import proofs.«144425_j75041668595954_2_alg».proof.Proof.BodyDefsK
import proofs.«144425_j75041668595954_2_alg».proof.Proof.Gen.Kernel.Launch
import proofs.«144425_j75041668595954_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- Core `c`'s buffer contents when the region is entered: the launch memory after the host lines in front of it. -/
abbrev V0 (c : Dev nD) : Valuation τ sig (Elt F) := StableHlo.after (List.flatten [hostOps0, hostOps0_1, hostOps0_2, hostOps0_3, hostOps0_4]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines in front, the region, the host line behind: it reduces to the region continued by that
    last line, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The line behind the region touches only the pipeline's arrays and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the pipeline's arrays (it writes the final result, which is none of them). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.nary_writes, StableHlo.binaryIndexed_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- Nor does the line after the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor does the line after the region: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Nor does the line after the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Nor does the line after the region: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- Nor does the line after the region: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- Nor does the line after the region: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- Nor does the line after the region: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- Nor does the line after the region: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- Nor does the line after the region: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (where it is not
    fetched the block index has not moved since it was), for any proof data over `V`'s arrays whose body leaves the
    input buffers as they were. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run that names the arrays -/

/-- A run ending with every array of the pipeline at the proof data's final contents and every other unscoped buffer as
    the last host line leaves it has in particular the nine arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c)⟩) h

/-! ## The pipeline's proof data -/

/-- The arrays as the region finds them; after the body at point `t` each input's buffer at its block and the output's at
    `out0_5` of the input blocks; nothing else of the core's state is used; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.Kernel.Hand

end
-- ==== Proof.BodyK.lean ====
/-
  The kernel body's run on whole staging buffers: with the five input buffers at any contents and the output buffer
  at anything, it terminates without a fault, leaves the inputs as they were and the output at `out0_5` of them. The
  body also loads the output buffer before storing over it; the loaded value is not used.
-/
import proofs.«144425_j75041668595954_2_alg».proof.Proof.BodyDefsK
import proofs.«144425_j75041668595954_2_alg».proof.Proof.Gen.Kernel.Launch
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers, the inputs' at contents `x0 … x4` and the output's at anything, ends with the
    inputs' as they were and the output's at `out0_5` of them. -/
theorem sound_kernel (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1024x128 .bf16) (harg3 : arg3.IsWhole) (arg4 : Memref sig .tc .vmem S128x3072 .bf16) (harg4 : arg4.IsWhole)
    (arg5 : Memref sig .tc .vmem S1x3072 .f32) (harg5 : arg5.IsWhole) (arg6 : Memref sig .tc .vmem S512x3072 .f32) (harg6 : arg6.IsWhole)
    (x0 : Vec F S512x1024 .f32) (x1 : Vec F S1024x3072 .bf16) (x2 : Vec F S1024x128 .bf16) (x3 : Vec F S128x3072 .bf16) (x4 : Vec F S1x3072 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__qkv_lora_kernel i arg1 harg1 arg2 harg2 arg3 harg3 arg4 harg4 arg5 harg5 arg6 harg6) K := by
  simp only [cc0__qkv_lora_kernel_eq_skeleton]; unfold cc0__qkv_lora_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

end Cert.Kernel.Hand

end
-- ==== Proof.FrameK.lean ====
/-
  The launch: the body's run at every grid point discharges the pipeline's body obligation, and the launch theorem
  returns the run of the whole program with every array of the pipeline named; the frame claim follows.
-/
import proofs.«144425_j75041668595954_2_alg».proof.Proof.LaunchK
import proofs.«144425_j75041668595954_2_alg».proof.Proof.BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    each array of the pipeline at what the proof data says and every other unscoped buffer as the last host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Hand

end
-- ==== Proof.BodyDefsKI.lean ====
/-
  What the kernel body leaves in its output buffer, as a value. The body loads each of its five input buffers through
  the whole-buffer rectangle, and stores once, over the whole output block, the payload `k0_pay1` of what it loaded.
-/
import proofs.«144425_j75041668595954_2_alg».proof.Proof.Gen.KernelIdeal.Skeleton
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- The whole-buffer rectangles the body's five loads and its one store go through. -/
abbrev rIn0 : Rect S512x1024 := Rect.unit (s := S512x1024) ![0, 0] S512x1024.size Facts₀.inb_S512x1024_S512x1024_0_0
abbrev rIn1 : Rect S1024x3072 := Rect.unit (s := S1024x3072) ![0, 0] S1024x3072.size Facts₀.inb_S1024x3072_S1024x3072_0_0
abbrev rIn2 : Rect S1024x128 := Rect.unit (s := S1024x128) ![0, 0] S1024x128.size Facts₀.inb_S1024x128_S1024x128_0_0
abbrev rIn3 : Rect S128x3072 := Rect.unit (s := S128x3072) ![0, 0] S128x3072.size Facts₀.inb_S128x3072_S128x3072_0_0
abbrev rIn4 : Rect S1x3072 := Rect.unit (s := S1x3072) ![0, 0] S1x3072.size Facts₀.inb_S1x3072_S1x3072_0_0
abbrev rOut : Rect S512x3072 := Rect.unit (s := S512x3072) ![0, 0] S512x3072.size Facts₀.inb_S512x3072_S512x3072_0_0

/-- What the body leaves in the output buffer: its one store, over the whole block, of the payload of the five loads. -/
def out0_5 (x0 : Vec F S512x1024 .f32) (x1 : Vec F S1024x3072 .bf16) (x2 : Vec F S1024x128 .bf16) (x3 : Vec F S128x3072 .bf16) (x4 : Vec F S1x3072 .f32) : Vec F S512x3072 .f32 :=
  View.canon [⟨rOut, k0_pay1 (View.ld x0 rIn0) (View.ld x1 rIn1) (View.ld x2 rIn2) (View.ld x3 rIn3) (View.ld x4 rIn4)⟩]

/-- The one store covers the buffer. -/
theorem cover0_5 (p0 : Vec F S512x3072 .f32) (y : S512x3072.Idx) :
    ∃ pc ∈ ([⟨rOut, p0⟩] : List (View.Piece (Elt F) S512x3072 .f32)), y ∈ pc.1.set :=
  View.cover_of_tiled [⟨rOut, p0⟩] S512x3072.size (by rfl) y

end Cert.KernelIdeal.Hand

end
-- ==== Proof.LaunchKI.lean ====
/-
  The frame of this program — it runs to the end, faults nowhere, and leaves its nine argument arrays as they were —
  for one pipelined region between host lines, at any float instance.

  The program is: host lines that re-lay the arguments (a flattening, transposes, two stackings, two zero paddings, a
  scaling, casts), one pipelined region of 32 grid points, one host line that restores the token axes. No host line
  writes an argument array, and the region's six windows are over arrays the host lines made, none of them an argument.

  At grid point t the body is called on six staging buffers: windows 0–4 hold the point's input blocks (512 rows of the
  flattened activations, and the four whole operands, fetched once), window 5 is the output block. The body loads the
  five inputs whole, also loads the output buffer (whatever it holds; the value is not used), and stores one value over
  the whole output block: `k0_pay1` of the five inputs. So after the body the inputs' buffers are unchanged and the
  output buffer holds that payload; this is all the launch theorem needs (`dats`). This module holds the host side, the windows' blocks and that proof data.
-/
import proofs.«144425_j75041668595954_2_alg».proof.Proof.BodyDefsKI
import proofs.«144425_j75041668595954_2_alg».proof.Proof.Gen.KernelIdeal.Launch
import proofs.«144425_j75041668595954_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- Core `c`'s buffer contents when the region is entered: the launch memory after the host lines in front of it. -/
abbrev V0 (c : Dev nD) : Valuation τ sig (Elt F) := StableHlo.after (List.flatten [hostOps0, hostOps0_1, hostOps0_2, hostOps0_3, hostOps0_4]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines in front, the region, the host line behind: it reduces to the region continued by that
    last line, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The line behind the region touches only the pipeline's arrays and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the pipeline's arrays (it writes the final result, which is none of them). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.nary_writes, StableHlo.binaryIndexed_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- Nor does the line after the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor does the line after the region: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Nor does the line after the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Nor does the line after the region: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- Nor does the line after the region: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- Nor does the line after the region: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- Nor does the line after the region: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- Nor does the line after the region: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- Nor does the line after the region: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (where it is not
    fetched the block index has not moved since it was), for any proof data over `V`'s arrays whose body leaves the
    input buffers as they were. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run that names the arrays -/

/-- A run ending with every array of the pipeline at the proof data's final contents and every other unscoped buffer as
    the last host line leaves it has in particular the nine arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c)⟩) h

/-! ## The pipeline's proof data -/

/-- The arrays as the region finds them; after the body at point `t` each input's buffer at its block and the output's at
    `out0_5` of the input blocks; nothing else of the core's state is used; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.KernelIdeal.Hand

end
-- ==== Proof.BodyKI.lean ====
/-
  The kernel body's run on whole staging buffers: with the five input buffers at any contents and the output buffer
  at anything, it terminates without a fault, leaves the inputs as they were and the output at `out0_5` of them. The
  body also loads the output buffer before storing over it; the loaded value is not used.
-/
import proofs.«144425_j75041668595954_2_alg».proof.Proof.BodyDefsKI
import proofs.«144425_j75041668595954_2_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers, the inputs' at contents `x0 … x4` and the output's at anything, ends with the
    inputs' as they were and the output's at `out0_5` of them. -/
theorem sound_kernel (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1024x128 .bf16) (harg3 : arg3.IsWhole) (arg4 : Memref sig .tc .vmem S128x3072 .bf16) (harg4 : arg4.IsWhole)
    (arg5 : Memref sig .tc .vmem S1x3072 .f32) (harg5 : arg5.IsWhole) (arg6 : Memref sig .tc .vmem S512x3072 .f32) (harg6 : arg6.IsWhole)
    (x0 : Vec F S512x1024 .f32) (x1 : Vec F S1024x3072 .bf16) (x2 : Vec F S1024x128 .bf16) (x3 : Vec F S128x3072 .bf16) (x4 : Vec F S1x3072 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__qkv_lora_kernel i arg1 harg1 arg2 harg2 arg3 harg3 arg4 harg4 arg5 harg5 arg6 harg6) K := by
  simp only [cc0__qkv_lora_kernel_eq_skeleton]; unfold cc0__qkv_lora_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

end Cert.KernelIdeal.Hand

end
-- ==== Proof.FrameKI.lean ====
/-
  The launch: the body's run at every grid point discharges the pipeline's body obligation, and the launch theorem
  returns the run of the whole program with every array of the pipeline named; the frame claim follows.
-/
import proofs.«144425_j75041668595954_2_alg».proof.Proof.LaunchKI
import proofs.«144425_j75041668595954_2_alg».proof.Proof.BodyKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    each array of the pipeline at what the proof data says and every other unscoped buffer as the last host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.HostPrep.lean ====
/-
  What the host lines in front of the kernel region compute, as pure functions of the argument arrays. The region's
  five operands are, in window order:

    `flatX`  — the activations with tokens flattened, [16384, 1024]: row r is token (r / 2048, r % 2048);
    `denseT` — the dense weight transposed to [1024, 3072] (input feature, output feature), cast to the narrow format;
    `downT`  — the three down-matrices stacked to 48 rows, zero-padded to 128 rows, transposed to [1024, 128], cast;
    `upBD`   — the three up-matrices transposed and laid block-diagonally in [48, 3072], every entry multiplied by the
               scale (the number one), zero-padded to [128, 3072], cast;
    `biasRow` — the bias as one row, [1, 3072];

  and after the region `unflat` restores the token axes of the [16384, 3072] result. The pad value in both paddings
  is the integer zero converted to a float.
-/
import proofs.«144425_j75041668595954_2_alg».proof.KernelIdeal

noncomputable section

namespace Cert.KernelIdeal.Prep

open Idealize.ShloMosaic Idealize.SL.Sem Cert.KernelIdeal
open Facts₀

variable {F : FTy → Type} [FloatOps F] [Facts]

/-- The activations with the two token axes flattened into one. -/
def flatX (x : Vec F S8x2048x1024 .f32) : Vec F S16384x1024 .f32 :=
  shapeCast S16384x1024 x shapeCasts_S8x2048x1024_S16384x1024

/-- The dense weight, transposed and cast. -/
def denseT (w : Vec F S3072x1024 .f32) : Vec F S1024x3072 .bf16 :=
  truncf .bf16 (transpose S1024x3072 [1, 0] w transposes_S3072x1024_S1024x3072_1_0) bitsLt_bf16_f32

/-- The pad value: the integer zero, converted. -/
def padZero : Vec F S_ .f32 := sitofp .f32 (constantI S_ 32 0#32)

/-- The three down-matrices stacked along the rank axis. -/
def downCat (a3 a5 a7 : Vec F S16x1024 .f32) : Vec F S48x1024 .f32 :=
  concatenate S48x1024 0 [⟨S16x1024, a3⟩, ⟨S16x1024, a5⟩, ⟨S16x1024, a7⟩] concatenates_S16x1024_S16x1024_S16x1024_S48x1024_d0

/-- Stacked, padded to 128 rows, transposed, cast. -/
def downT (a3 a5 a7 : Vec F S16x1024 .f32) : Vec F S1024x128 .bf16 :=
  truncf .bf16 (transpose S1024x128 [1, 0]
    (pad S128x1024 ![0, 0] ![80, 0] ![0, 0] (downCat a3 a5 a7) padZero pads_S48x1024_S128x1024_0800_000 h_S_)
    transposes_S128x1024_S1024x128_1_0) bitsLt_bf16_f32

/-- A [16, 1024] block of zeros. -/
def zeroBlock : Vec F S16x1024 .f32 := broadcastInDim S16x1024 ![] bcast_S_S16x1024 (constant S_ .f32 0x00000000#32)

/-- An up-matrix transposed to [16, 1024] (rank, feature within the band). -/
def upT (u : Vec F S1024x16 .f32) : Vec F S16x1024 .f32 :=
  transpose S16x1024 [1, 0] u transposes_S1024x16_S16x1024_1_0

/-- The block-diagonal [48, 3072] arrangement of the three transposed up-matrices. -/
def upCat (b4 b6 b8 : Vec F S1024x16 .f32) : Vec F S48x3072 .f32 :=
  concatenate S48x3072 0
    [⟨S16x3072, concatenate S16x3072 1 [⟨S16x1024, upT b4⟩, ⟨S16x1024, zeroBlock⟩, ⟨S16x1024, zeroBlock⟩] concatenates_S16x1024_S16x1024_S16x1024_S16x3072_d1⟩,
     ⟨S16x3072, concatenate S16x3072 1 [⟨S16x1024, zeroBlock⟩, ⟨S16x1024, upT b6⟩, ⟨S16x1024, zeroBlock⟩] concatenates_S16x1024_S16x1024_S16x1024_S16x3072_d1⟩,
     ⟨S16x3072, concatenate S16x3072 1 [⟨S16x1024, zeroBlock⟩, ⟨S16x1024, zeroBlock⟩, ⟨S16x1024, upT b8⟩] concatenates_S16x1024_S16x1024_S16x1024_S16x3072_d1⟩]
    concatenates_S16x3072_S16x3072_S16x3072_S48x3072_d0

/-- Scaled by the constant one, padded to 128 rows, cast. -/
def upBD (b4 b6 b8 : Vec F S1024x16 .f32) : Vec F S128x3072 .bf16 :=
  truncf .bf16
    (pad S128x3072 ![0, 0] ![80, 0] ![0, 0]
      (mulf (upCat b4 b6 b8) (broadcastInDim S48x3072 ![] bcast_S_S48x3072 (constant S_ .f32 0x3F800000#32)))
      padZero pads_S48x3072_S128x3072_0800_000 h_S_)
    bitsLt_bf16_f32

/-- The bias as one row. -/
def biasRow (b2 : Vec F S3072 .f32) : Vec F S1x3072 .f32 :=
  shapeCast S1x3072 b2 shapeCasts_S3072_S1x3072

/-- The region's [16384, 3072] result with the token axes restored. -/
def unflat (y : Vec F S16384x3072 .f32) : Vec F S8x2048x3072 .f32 :=
  shapeCast S8x2048x3072 y shapeCasts_S16384x3072_S8x2048x3072

end Cert.KernelIdeal.Prep

end
-- ==== Proof.FlatSpec.lean ====
/-
  The kernel region's result over the FLATTENED operands, as one function of them: row r of the [16384, 3072] result at
  output feature q is

      (Σ_c X[r,c] · Wt[c,q]  +  Br[0,q])  +  Σ_{j<128} (Σ_c X[r,c] · At[c,j]) · Ub[j,q],

  X the flattened activations, Wt the transposed dense weight, At the stacked padded down-matrix (input feature, lane),
  Ub the block-diagonal padded up-matrix (lane, output feature), Br the bias row. Every grid point computes 512 rows of it.
-/
import proofs.«144425_j75041668595954_2_alg».proof.KernelIdeal
import Idealize.ShloMosaic.PureOps.Ideal
import Idealize.ShloMosaic.Lib.ValueIdx

noncomputable section

namespace Cert.KernelIdeal.Prep

open Idealize.ShloMosaic Idealize.ShloMosaic.ValueIdx Cert.KernelIdeal
open scoped BigOperators

/-- The result at row r, output feature q. -/
def GflatAt (X : Vec Ideal S16384x1024 .f32) (Wt : Vec Ideal S1024x3072 .bf16) (At : Vec Ideal S1024x128 .bf16)
    (Ub : Vec Ideal S128x3072 .bf16) (Br : Vec Ideal S1x3072 .f32) (r : Fin 16384) (q : Fin 3072) : EReal :=
  ((∑ c : Fin 1024, X (ix2 r c) * Wt (ix2 c q)) + Br (ix2 (0 : Fin 1) q))
    + ∑ j : Fin 128, (∑ c : Fin 1024, X (ix2 r c) * At (ix2 c j)) * Ub (ix2 j q)

/-- The [16384, 3072] result array. -/
def Gflat (X : Vec Ideal S16384x1024 .f32) (Wt : Vec Ideal S1024x3072 .bf16) (At : Vec Ideal S1024x128 .bf16)
    (Ub : Vec Ideal S128x3072 .bf16) (Br : Vec Ideal S1x3072 .f32) : Vec Ideal S16384x3072 .f32 :=
  fun i => GflatAt X Wt At Ub Br (i 0) (i 1)

end Cert.KernelIdeal.Prep

end
-- ==== Proof.Payload.lean ====
/-
  The kernel body's arithmetic, read at one element. The body forms three products into zero accumulators — the
  activations by the dense weight, the activations by the stacked down-matrices, and that second product by the
  block-diagonal up-matrices — and adds to the first the bias row, repeated over the 512 rows, and then the third.
  On extended reals the two narrowing format changes are the identity, a reshape of a shape to itself is the identity,
  and a product into the zero accumulator is the plain sum over the contraction index of the operands' products. So the
  element at row `p`, column `q` is

      (Σ_c x(p,c) · w(c,q) + bias(0,q)) + Σ_j (Σ_c x(p,c) · a(c,j)) · u(j,q).

  No law of arithmetic beyond `0 + s = s` (for the accumulators) is used: the sums stay as the body nests them.
-/
import proofs.«144425_j75041668595954_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payload

open Idealize.ShloMosaic Idealize.ShloMosaic.ValueIdx Idealize.SL.Sem Cert.KernelIdeal
open Facts₀

variable [Cert.KernelIdeal.Facts]

/-! ### The 512×1024 by 1024×3072 product -/

/-- Off the contracted axis the left operand is read at the output's row. -/
theorem dense_lhs_row (i : S512x3072.Idx) (k : dot_S512x1024_S1024x3072_S512x3072_1_0_0_1_n_n.contr.Idx) :
    (dot_S512x1024_S1024x3072_S512x3072_1_0_0_1_n_n.lhsIdx i k 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl

/-- On its contracted axis the left operand is read at the contraction position. -/
theorem dense_lhs_contr (i : S512x3072.Idx) (k : dot_S512x1024_S1024x3072_S512x3072_1_0_0_1_n_n.contr.Idx) :
    (dot_S512x1024_S1024x3072_S512x3072_1_0_0_1_n_n.lhsIdx i k 1).val = (k ⟨0, by decide⟩).val :=
  dot_S512x1024_S1024x3072_S512x3072_1_0_0_1_n_n.lhsIdx_val_of_single rfl i k

/-- On its contracted axis the right operand is read at the contraction position. -/
theorem dense_rhs_contr (i : S512x3072.Idx) (k : dot_S512x1024_S1024x3072_S512x3072_1_0_0_1_n_n.contr.Idx) :
    (dot_S512x1024_S1024x3072_S512x3072_1_0_0_1_n_n.rhsIdx i k 0).val = (k ⟨0, by decide⟩).val :=
  dot_S512x1024_S1024x3072_S512x3072_1_0_0_1_n_n.rhsIdx_val_of_single rfl i k

/-- Off the contracted axis the right operand is read at the output's column. -/
theorem dense_rhs_col (i : S512x3072.Idx) (k : dot_S512x1024_S1024x3072_S512x3072_1_0_0_1_n_n.contr.Idx) :
    (dot_S512x1024_S1024x3072_S512x3072_1_0_0_1_n_n.rhsIdx i k 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The product into the zero accumulator, at row `p` and column `q`: the sum over the 1024 contraction positions `c` of
    the left operand at `(p, c)` times the right operand at `(c, q)`. The accumulator's zero word is the extended real
    zero, and the contraction's one-axis index set is re-indexed by its coordinate. -/
theorem dense_apply (l : FVec Ideal S512x1024 .bf16) (r : FVec Ideal S1024x3072 .bf16) (p : Fin 512) (q : Fin 3072) :
    matmul (F := Ideal) dot_S512x1024_S1024x3072_S512x3072_1_0_0_1_n_n none l r (constant (F := Ideal) S512x3072 .f32 0x00000000#32) (ix2 p q)
      = ∑ c : Fin 1024, l (ix2 p c) * r (ix2 c q) := by
  refine (Ideal.matmul_constant_zero_apply dot_S512x1024_S1024x3072_S512x3072_1_0_0_1_n_n none l r (ix2 p q)).trans ?_
  rw [← Equiv.sum_comp (contrEquiv1 dot_S512x1024_S1024x3072_S512x3072_1_0_0_1_n_n 1024 rfl rfl).symm]
  refine Finset.sum_congr rfl fun c _ => ?_
  have hc := contrEquiv1_symm_val dot_S512x1024_S1024x3072_S512x3072_1_0_0_1_n_n 1024 rfl rfl c
  have el : dot_S512x1024_S1024x3072_S512x3072_1_0_0_1_n_n.lhsIdx (ix2 p q) ((contrEquiv1 dot_S512x1024_S1024x3072_S512x3072_1_0_0_1_n_n 1024 rfl rfl).symm c) = ix2 p c := funext fun a => Fin.ext (by
    match a with
    | ⟨0, _⟩ => exact dense_lhs_row _ _
    | ⟨1, _⟩ => exact (dense_lhs_contr _ _).trans hc)
  have er : dot_S512x1024_S1024x3072_S512x3072_1_0_0_1_n_n.rhsIdx (ix2 p q) ((contrEquiv1 dot_S512x1024_S1024x3072_S512x3072_1_0_0_1_n_n 1024 rfl rfl).symm c) = ix2 c q := funext fun a => Fin.ext (by
    match a with
    | ⟨0, _⟩ => exact (dense_rhs_contr _ _).trans hc
    | ⟨1, _⟩ => exact dense_rhs_col _ _)
  rw [el, er]

/-! ### The 512×1024 by 1024×128 product -/

/-- Off the contracted axis the left operand is read at the output's row. -/
theorem down_lhs_row (i : S512x128.Idx) (k : dot_S512x1024_S1024x128_S512x128_1_0_0_1_n_n.contr.Idx) :
    (dot_S512x1024_S1024x128_S512x128_1_0_0_1_n_n.lhsIdx i k 0).val = (i 0).val := by
  unfold DotDims.lhsIdx
  rw [dif_neg (show ¬(0 : Fin S512x1024.rank) ∈ dot_S512x1024_S1024x128_S512x128_1_0_0_1_n_n.lhsBatch by decide), dif_pos (show (0 : Fin S512x1024.rank) ∈ dot_S512x1024_S1024x128_S512x128_1_0_0_1_n_n.lhsNonContracting by decide)]
  rfl

/-- On its contracted axis the left operand is read at the contraction position. -/
theorem down_lhs_contr (i : S512x128.Idx) (k : dot_S512x1024_S1024x128_S512x128_1_0_0_1_n_n.contr.Idx) :
    (dot_S512x1024_S1024x128_S512x128_1_0_0_1_n_n.lhsIdx i k 1).val = (k ⟨0, by decide⟩).val :=
  dot_S512x1024_S1024x128_S512x128_1_0_0_1_n_n.lhsIdx_val_of_single rfl i k

/-- On its contracted axis the right operand is read at the contraction position. -/
theorem down_rhs_contr (i : S512x128.Idx) (k : dot_S512x1024_S1024x128_S512x128_1_0_0_1_n_n.contr.Idx) :
    (dot_S512x1024_S1024x128_S512x128_1_0_0_1_n_n.rhsIdx i k 0).val = (k ⟨0, by decide⟩).val :=
  dot_S512x1024_S1024x128_S512x128_1_0_0_1_n_n.rhsIdx_val_of_single rfl i k

/-- Off the contracted axis the right operand is read at the output's column. -/
theorem down_rhs_col (i : S512x128.Idx) (k : dot_S512x1024_S1024x128_S512x128_1_0_0_1_n_n.contr.Idx) :
    (dot_S512x1024_S1024x128_S512x128_1_0_0_1_n_n.rhsIdx i k 1).val = (i 1).val := by
  unfold DotDims.rhsIdx
  rw [dif_neg (show ¬(1 : Fin S1024x128.rank) ∈ dot_S512x1024_S1024x128_S512x128_1_0_0_1_n_n.rhsBatch by decide), dif_pos (show (1 : Fin S1024x128.rank) ∈ dot_S512x1024_S1024x128_S512x128_1_0_0_1_n_n.rhsNonContracting by decide)]
  rfl

/-- The product into the zero accumulator, at row `p` and column `q`: the sum over the 1024 contraction positions `c` of
    the left operand at `(p, c)` times the right operand at `(c, q)`. The accumulator's zero word is the extended real
    zero, and the contraction's one-axis index set is re-indexed by its coordinate. -/
theorem down_apply (l : FVec Ideal S512x1024 .bf16) (r : FVec Ideal S1024x128 .bf16) (p : Fin 512) (q : Fin 128) :
    matmul (F := Ideal) dot_S512x1024_S1024x128_S512x128_1_0_0_1_n_n none l r (constant (F := Ideal) S512x128 .f32 0x00000000#32) (ix2 p q)
      = ∑ c : Fin 1024, l (ix2 p c) * r (ix2 c q) := by
  refine (Ideal.matmul_constant_zero_apply dot_S512x1024_S1024x128_S512x128_1_0_0_1_n_n none l r (ix2 p q)).trans ?_
  rw [← Equiv.sum_comp (contrEquiv1 dot_S512x1024_S1024x128_S512x128_1_0_0_1_n_n 1024 rfl rfl).symm]
  refine Finset.sum_congr rfl fun c _ => ?_
  have hc := contrEquiv1_symm_val dot_S512x1024_S1024x128_S512x128_1_0_0_1_n_n 1024 rfl rfl c
  have el : dot_S512x1024_S1024x128_S512x128_1_0_0_1_n_n.lhsIdx (ix2 p q) ((contrEquiv1 dot_S512x1024_S1024x128_S512x128_1_0_0_1_n_n 1024 rfl rfl).symm c) = ix2 p c := funext fun a => Fin.ext (by
    match a with
    | ⟨0, _⟩ => exact down_lhs_row _ _
    | ⟨1, _⟩ => exact (down_lhs_contr _ _).trans hc)
  have er : dot_S512x1024_S1024x128_S512x128_1_0_0_1_n_n.rhsIdx (ix2 p q) ((contrEquiv1 dot_S512x1024_S1024x128_S512x128_1_0_0_1_n_n 1024 rfl rfl).symm c) = ix2 c q := funext fun a => Fin.ext (by
    match a with
    | ⟨0, _⟩ => exact (down_rhs_contr _ _).trans hc
    | ⟨1, _⟩ => exact down_rhs_col _ _)
  rw [el, er]

/-! ### The 512×128 by 128×3072 product -/

/-- Off the contracted axis the left operand is read at the output's row. -/
theorem up_lhs_row (i : S512x3072.Idx) (k : dot_S512x128_S128x3072_S512x3072_1_0_0_1_n_n.contr.Idx) :
    (dot_S512x128_S128x3072_S512x3072_1_0_0_1_n_n.lhsIdx i k 0).val = (i 0).val := by
  unfold DotDims.lhsIdx
  rw [dif_neg (show ¬(0 : Fin S512x128.rank) ∈ dot_S512x128_S128x3072_S512x3072_1_0_0_1_n_n.lhsBatch by decide), dif_pos (show (0 : Fin S512x128.rank) ∈ dot_S512x128_S128x3072_S512x3072_1_0_0_1_n_n.lhsNonContracting by decide)]
  rfl

/-- On its contracted axis the left operand is read at the contraction position. -/
theorem up_lhs_contr (i : S512x3072.Idx) (k : dot_S512x128_S128x3072_S512x3072_1_0_0_1_n_n.contr.Idx) :
    (dot_S512x128_S128x3072_S512x3072_1_0_0_1_n_n.lhsIdx i k 1).val = (k ⟨0, by decide⟩).val :=
  dot_S512x128_S128x3072_S512x3072_1_0_0_1_n_n.lhsIdx_val_of_single rfl i k

/-- On its contracted axis the right operand is read at the contraction position. -/
theorem up_rhs_contr (i : S512x3072.Idx) (k : dot_S512x128_S128x3072_S512x3072_1_0_0_1_n_n.contr.Idx) :
    (dot_S512x128_S128x3072_S512x3072_1_0_0_1_n_n.rhsIdx i k 0).val = (k ⟨0, by decide⟩).val :=
  dot_S512x128_S128x3072_S512x3072_1_0_0_1_n_n.rhsIdx_val_of_single rfl i k

/-- Off the contracted axis the right operand is read at the output's column. -/
theorem up_rhs_col (i : S512x3072.Idx) (k : dot_S512x128_S128x3072_S512x3072_1_0_0_1_n_n.contr.Idx) :
    (dot_S512x128_S128x3072_S512x3072_1_0_0_1_n_n.rhsIdx i k 1).val = (i 1).val := by
  unfold DotDims.rhsIdx
  rw [dif_neg (show ¬(1 : Fin S128x3072.rank) ∈ dot_S512x128_S128x3072_S512x3072_1_0_0_1_n_n.rhsBatch by decide), dif_pos (show (1 : Fin S128x3072.rank) ∈ dot_S512x128_S128x3072_S512x3072_1_0_0_1_n_n.rhsNonContracting by decide)]
  rfl

/-- The product into the zero accumulator, at row `p` and column `q`: the sum over the 128 contraction positions `c` of
    the left operand at `(p, c)` times the right operand at `(c, q)`. The accumulator's zero word is the extended real
    zero, and the contraction's one-axis index set is re-indexed by its coordinate. -/
theorem up_apply (l : FVec Ideal S512x128 .bf16) (r : FVec Ideal S128x3072 .bf16) (p : Fin 512) (q : Fin 3072) :
    matmul (F := Ideal) dot_S512x128_S128x3072_S512x3072_1_0_0_1_n_n none l r (constant (F := Ideal) S512x3072 .f32 0x00000000#32) (ix2 p q)
      = ∑ c : Fin 128, l (ix2 p c) * r (ix2 c q) := by
  refine (Ideal.matmul_constant_zero_apply dot_S512x128_S128x3072_S512x3072_1_0_0_1_n_n none l r (ix2 p q)).trans ?_
  rw [← Equiv.sum_comp (contrEquiv1 dot_S512x128_S128x3072_S512x3072_1_0_0_1_n_n 128 rfl rfl).symm]
  refine Finset.sum_congr rfl fun c _ => ?_
  have hc := contrEquiv1_symm_val dot_S512x128_S128x3072_S512x3072_1_0_0_1_n_n 128 rfl rfl c
  have el : dot_S512x128_S128x3072_S512x3072_1_0_0_1_n_n.lhsIdx (ix2 p q) ((contrEquiv1 dot_S512x128_S128x3072_S512x3072_1_0_0_1_n_n 128 rfl rfl).symm c) = ix2 p c := funext fun a => Fin.ext (by
    match a with
    | ⟨0, _⟩ => exact up_lhs_row _ _
    | ⟨1, _⟩ => exact (up_lhs_contr _ _).trans hc)
  have er : dot_S512x128_S128x3072_S512x3072_1_0_0_1_n_n.rhsIdx (ix2 p q) ((contrEquiv1 dot_S512x128_S128x3072_S512x3072_1_0_0_1_n_n 128 rfl rfl).symm c) = ix2 c q := funext fun a => Fin.ext (by
    match a with
    | ⟨0, _⟩ => exact (up_rhs_contr _ _).trans hc
    | ⟨1, _⟩ => exact up_rhs_col _ _)
  rw [el, er]

/-! ### The bias row over the rows -/

/-- The bias row repeated over the 512 rows reads, at any row, the row's one entry in that column. -/
theorem biasRows_apply (v : FVec Ideal S1x3072 .f32) (p : Fin 512) (q : Fin 3072) :
    broadcastTo S512x3072 v broadcasts_S1x3072_S512x3072 (ix2 p q) = v (ix2 (0 : Fin 1) q) :=
  broadcastTo_apply v broadcasts_S1x3072_S512x3072 (ix2 p q) (ix2 (0 : Fin 1) q) (fun a => match a with
    | ⟨0, _⟩ => by show 0 = if (1 : Nat) = 1 then 0 else p.val; rw [if_pos rfl]
    | ⟨1, _⟩ => by show q.val = if (3072 : Nat) = 1 then 0 else q.val; rw [if_neg (by decide)])

/-! ### The payload -/

/-- The body's result at row `p`, column `q`: the dense product plus the bias, plus the up-product of the down-product. -/
theorem pay_apply (x0 : Vec Ideal Cert.KernelIdeal.S512x1024 .f32) (v3 : Vec Ideal Cert.KernelIdeal.S1024x3072 .bf16)
    (v6 : Vec Ideal Cert.KernelIdeal.S1024x128 .bf16) (v10 : Vec Ideal Cert.KernelIdeal.S128x3072 .bf16)
    (v13 : Vec Ideal Cert.KernelIdeal.S1x3072 .f32) (p : Fin 512) (q : Fin 3072) :
    Cert.KernelIdeal.Gen.k0_pay1 (F := Ideal) x0 v3 v6 v10 v13 (ix2 p q)
      = ((∑ c : Fin 1024, x0 (ix2 p c) * v3 (ix2 c q)) + v13 (ix2 (0 : Fin 1) q))
        + ∑ j : Fin 128, (∑ c : Fin 1024, x0 (ix2 p c) * v6 (ix2 c j)) * v10 (ix2 j q) := by
  unfold Gen.k0_pay1
  simp only [shapeCast_self]
  rw [addf_apply, addf_apply, biasRows_apply, dense_apply, up_apply]
  refine congrArg (fun s => _ + s) (Finset.sum_congr rfl fun j _ => ?_)
  rw [truncf_apply, down_apply]
  rfl

end Cert.KernelIdeal.Payload

end
-- ==== Proof.BlocksKI.lean ====
/-
  The region's operands and its blocks. (1) The five arrays the region's windows are over are what the host lines in
  front made of the arguments: the flattened activations, the transposed dense weight, the stacked padded down-matrix,
  the block-diagonal padded up-matrix, the bias row. (2) Grid point t computes rows 512·t … 512·t+511 of ONE function
  `Gflat` of those five arrays: the activations' block at t is those rows, the four other operands are read whole at
  every point, and the output block at t is those rows of the result; the 32 blocks tile the 16384 rows, so after the
  last point the result array is `Gflat` of the operands (`final`).
-/
import proofs.«144425_j75041668595954_2_alg».proof.Proof.LaunchKI
import proofs.«144425_j75041668595954_2_alg».proof.Proof.HostPrep
import proofs.«144425_j75041668595954_2_alg».proof.Proof.FlatSpec
import proofs.«144425_j75041668595954_2_alg».proof.Proof.Payload
import Idealize.ShloMosaic.Lib.Pipeline.Value
import Idealize.ShloMosaic.Lib.StableHlo.Run
import Idealize.ShloMosaic.Lib.ValueIdx

set_option maxRecDepth 16384

noncomputable section

namespace Cert.KernelIdeal.KValue

open Cert.KernelIdeal Cert.KernelIdeal.Gen Cert.KernelIdeal.Hand Cert.KernelIdeal.Prep Cert.KernelIdeal.Payload
open Idealize.ShloMosaic Idealize.ShloMosaic.TcCoe Idealize.ShloMosaic.ValueIdx Idealize.SL.Sem Idealize.ShloMosaic.StableHlo
open Idealize.ShloMosaic.Pipeline (Dat)
open scoped BigOperators

variable (m : (ℓ : Loc nD τ sig) → Buf (Elt Ideal) ℓ) (ρ : Dev nD → PrngReg)

/-! ## (1) The region's operands -/

/-- Window 0's array is the activations with the token axes flattened. -/
theorem V_flatX (c : Dev nD) : (V m c main_v0 : S16384x1024.Idx → EReal) = flatX (F := Ideal) (m ((c : Thread nD τ).loc main_arg0)) := by
  dsimp only [V, V0]
  simp only [hostOps0, hostOps0_1, hostOps0_2, hostOps0_3, hostOps0_4, List.flatten_cons, List.flatten_nil, List.append_nil, List.cons_append, List.nil_append]
  after_results
  rfl

/-- Window 1's array is the dense weight transposed. -/
theorem V_denseT (c : Dev nD) : (V m c main_v2 : S1024x3072.Idx → EReal) = denseT (F := Ideal) (m ((c : Thread nD τ).loc main_arg1)) := by
  dsimp only [V, V0]
  simp only [hostOps0, hostOps0_1, hostOps0_2, hostOps0_3, hostOps0_4, List.flatten_cons, List.flatten_nil, List.append_nil, List.cons_append, List.nil_append]
  after_results
  rfl

/-- Window 2's array is the three down-matrices stacked, zero-padded and transposed. -/
theorem V_downT (c : Dev nD) : (V m c main_v6 : S1024x128.Idx → EReal) = downT (F := Ideal) (m ((c : Thread nD τ).loc main_arg3)) (m ((c : Thread nD τ).loc main_arg5)) (m ((c : Thread nD τ).loc main_arg7)) := by
  dsimp only [V, V0]
  simp only [hostOps0, hostOps0_1, hostOps0_2, hostOps0_3, hostOps0_4, List.flatten_cons, List.flatten_nil, List.append_nil, List.cons_append, List.nil_append]
  after_results
  rfl

/-- Window 3's array is the three up-matrices laid block-diagonally, scaled by one and zero-padded. -/
theorem V_upBD (c : Dev nD) : (V m c main_v18 : S128x3072.Idx → EReal) = upBD (F := Ideal) (m ((c : Thread nD τ).loc main_arg4)) (m ((c : Thread nD τ).loc main_arg6)) (m ((c : Thread nD τ).loc main_arg8)) := by
  dsimp only [V, V0]
  simp only [hostOps0, hostOps0_1, hostOps0_2, hostOps0_3, hostOps0_4, List.flatten_cons, List.flatten_nil, List.append_nil, List.cons_append, List.nil_append]
  after_results
  rfl

/-- Window 4's array is the bias as one row. -/
theorem V_biasRow (c : Dev nD) : (V m c main_v19 : S1x3072.Idx → EReal) = biasRow (F := Ideal) (m ((c : Thread nD τ).loc main_arg2)) := by
  dsimp only [V, V0]
  simp only [hostOps0, hostOps0_1, hostOps0_2, hostOps0_3, hostOps0_4, List.flatten_cons, List.flatten_nil, List.append_nil, List.cons_append, List.nil_append]
  after_results
  rfl

/-! ## (2) From the blocks to the array -/

theorem hz : (![0, 0] : Fin 2 → Nat) = fun _ => 0 := funext fun a => by fin_cases a <;> rfl

/-- The index maps over the grid: the activations' window and the output window move down one block of rows per
    point; the four other windows stay on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 32 := by
  have h := t.isLt
  have hN : cfg0.N = 32 := N_0
  omega

/-- Window 0's block at point t holds rows 512·t … of its array. -/
theorem emb0 (t : Fin cfg0.N) (p : Fin 512) (k : Fin 1024) (r : Fin 16384) (hr : r.val = t.val * 512 + p.val) :
    ((cfg0.win 0).blk t).view.emb (ix2 p k) = ix2 r k := by
  obtain ⟨e00, e01, -⟩ := idx_facts t
  funext a; apply Fin.ext
  match a with
  | ⟨0, _⟩ => show win0_0.index t (0 : Fin 2) * 512 + 1 * p.val = r.val; omega
  | ⟨1, _⟩ => show win0_0.index t (1 : Fin 2) * 1024 + 1 * k.val = k.val; omega

/-- Windows 1–4 have one block, the whole array. -/
theorem emb1 (t : Fin cfg0.N) (k : Fin 1024) (q : Fin 3072) : ((cfg0.win 1).blk t).view.emb (ix2 k q) = ix2 k q := by
  obtain ⟨-, -, e10, e11, -⟩ := idx_facts t
  funext a; apply Fin.ext
  match a with
  | ⟨0, _⟩ => show win0_1.index t (0 : Fin 2) * 1024 + 1 * k.val = k.val; omega
  | ⟨1, _⟩ => show win0_1.index t (1 : Fin 2) * 3072 + 1 * q.val = q.val; omega
theorem emb2 (t : Fin cfg0.N) (k : Fin 1024) (j : Fin 128) : ((cfg0.win 2).blk t).view.emb (ix2 k j) = ix2 k j := by
  obtain ⟨-, -, -, -, e20, e21, -⟩ := idx_facts t
  funext a; apply Fin.ext
  match a with
  | ⟨0, _⟩ => show win0_2.index t (0 : Fin 2) * 1024 + 1 * k.val = k.val; omega
  | ⟨1, _⟩ => show win0_2.index t (1 : Fin 2) * 128 + 1 * j.val = j.val; omega
theorem emb3 (t : Fin cfg0.N) (j : Fin 128) (q : Fin 3072) : ((cfg0.win 3).blk t).view.emb (ix2 j q) = ix2 j q := by
  obtain ⟨-, -, -, -, -, -, e30, e31, -⟩ := idx_facts t
  funext a; apply Fin.ext
  match a with
  | ⟨0, _⟩ => show win0_3.index t (0 : Fin 2) * 128 + 1 * j.val = j.val; omega
  | ⟨1, _⟩ => show win0_3.index t (1 : Fin 2) * 3072 + 1 * q.val = q.val; omega
theorem emb4 (t : Fin cfg0.N) (z : Fin 1) (q : Fin 3072) : ((cfg0.win 4).blk t).view.emb (ix2 z q) = ix2 z q := by
  obtain ⟨-, -, -, -, -, -, -, -, e40, e41, -⟩ := idx_facts t
  funext a; apply Fin.ext
  match a with
  | ⟨0, _⟩ => show win0_4.index t (0 : Fin 2) * 1 + 1 * z.val = z.val; omega
  | ⟨1, _⟩ => show win0_4.index t (1 : Fin 2) * 3072 + 1 * q.val = q.val; omega
/-- The output block at point t is rows 512·t … of the result. -/
theorem emb5 (t : Fin cfg0.N) (p : Fin 512) (q : Fin 3072) (r : Fin 16384) (hr : r.val = t.val * 512 + p.val) :
    ((cfg0.win 5).blk t).view.emb (ix2 p q) = ix2 r q := by
  obtain ⟨-, -, -, -, -, -, -, -, -, -, e50, e51⟩ := idx_facts t
  funext a; apply Fin.ext
  match a with
  | ⟨0, _⟩ => show win0_5.index t (0 : Fin 2) * 512 + 1 * p.val = r.val; omega
  | ⟨1, _⟩ => show win0_5.index t (1 : Fin 2) * 3072 + 1 * q.val = q.val; omega

/-- What point t writes back is block t of `Gflat` of the five operands as the region finds them. -/
theorem flushed_eq (c : Dev nD) (t : Fin cfg0.N) :
    (dats m 0 c).flushed 5 t = ((cfg0.win 5).blk t).view.read (Elt Ideal) (Gflat (V m c main_v0) (V m c main_v2) (V m c main_v6) (V m c main_v18) (V m c main_v19)) := by
  show (cfg0.win 5).cut (grid0.coords t) ((dats m 0 c).after 5 t) = _
  rw [after0_5]
  unfold out0_5
  rw [View.canon_unit_zero hz]
  simp only [View.ld_unit_zero (S := S512x1024) hz, View.ld_unit_zero (S := S1024x3072) hz, View.ld_unit_zero (S := S1024x128) hz,
    View.ld_unit_zero (S := S128x3072) hz, View.ld_unit_zero (S := S1x3072) hz]
  funext y
  obtain ⟨p, q, rfl⟩ : ∃ (p : Fin 512) (q : Fin 3072), y = ix2 p q := ⟨y 0, y 1, eq_ix2 y⟩
  have ht := t_lt t
  have hr : t.val * 512 + p.val < 16384 := by have := p.isLt; omega
  show k0_pay1 (F := Ideal) (iblk m c 0 t) (iblk m c 1 t) (iblk m c 2 t) (iblk m c 3 t) (iblk m c 4 t) (ix2 p q)
    = Gflat (V m c main_v0) (V m c main_v2) (V m c main_v6) (V m c main_v18) (V m c main_v19) (((cfg0.win 5).blk t).view.emb (ix2 p q))
  rw [emb5 t p q ⟨t.val * 512 + p.val, hr⟩ rfl]
  refine (pay_apply (iblk m c 0 t) (iblk m c 1 t) (iblk m c 2 t) (iblk m c 3 t) (iblk m c 4 t) p q).trans ?_
  show _ = GflatAt (V m c main_v0) (V m c main_v2) (V m c main_v6) (V m c main_v18) (V m c main_v19) ⟨t.val * 512 + p.val, hr⟩ q
  unfold GflatAt
  have r0 : ∀ k : Fin 1024, iblk m c 0 t (ix2 p k) = V m c main_v0 (ix2 (⟨t.val * 512 + p.val, hr⟩ : Fin 16384) k) := fun k => by
    show V m c main_v0 (((cfg0.win 0).blk t).view.emb (ix2 p k)) = _
    rw [emb0 t p k ⟨t.val * 512 + p.val, hr⟩ rfl]
  have r1 : ∀ (k : Fin 1024), iblk m c 1 t (ix2 k q) = V m c main_v2 (ix2 k q) := fun k => by
    show V m c main_v2 (((cfg0.win 1).blk t).view.emb (ix2 k q)) = _
    rw [emb1 t k q]
  have r2 : ∀ (k : Fin 1024) (j : Fin 128), iblk m c 2 t (ix2 k j) = V m c main_v6 (ix2 k j) := fun k j => by
    show V m c main_v6 (((cfg0.win 2).blk t).view.emb (ix2 k j)) = _
    rw [emb2 t k j]
  have r3 : ∀ (j : Fin 128), iblk m c 3 t (ix2 j q) = V m c main_v18 (ix2 j q) := fun j => by
    show V m c main_v18 (((cfg0.win 3).blk t).view.emb (ix2 j q)) = _
    rw [emb3 t j q]
  have r4 : iblk m c 4 t (ix2 (0 : Fin 1) q) = V m c main_v19 (ix2 (0 : Fin 1) q) := by
    show V m c main_v19 (((cfg0.win 4).blk t).view.emb (ix2 (0 : Fin 1) q)) = _
    rw [emb4 t 0 q]
  simp only [r0, r1, r2, r3, r4]

/-- An index of the result array is in point t's block iff its coordinates are in the block's ranges. -/
theorem mem_blk (t : Fin cfg0.N) (i : S16384x3072.Idx) :
    i ∈ ((cfg0.win 5).blk t).view.set ↔ ∀ a : Fin 2, win0_5.index t a * S512x3072.size a ≤ (i a).val ∧ (i a).val < win0_5.index t a * S512x3072.size a + S512x3072.size a := by
  show i ∈ ((View.whole main_v20).slice (win0_5.rect t)).set ↔ _
  rw [View.set_slice_whole, Rect.mem_set_unit]
  exact Iff.rfl

/-- The 32 output blocks tile the 16384 rows: row r is in the block of point r / 512. -/
theorem cover (i : S16384x3072.Idx) : ∃ t : Fin cfg0.N, (cfg0.win 5).flush t = true ∧ i ∈ ((cfg0.win 5).blk t).view.set := by
  have hi0 : (i 0).val < 16384 := (i 0).isLt
  have hi1 : (i 1).val < 3072 := (i 1).isLt
  have hN : cfg0.N = 32 := N_0
  let t : Fin cfg0.N := ⟨(i 0).val / 512, by rw [hN]; omega⟩
  obtain ⟨-, -, -, -, -, -, -, -, -, -, e50, e51⟩ := idx_facts t
  have e50' : win0_5.index t (0 : Fin 2) = (i 0).val / 512 := e50
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 3072 ≤ (i 1).val ∧ (i 1).val < win0_5.index t (1 : Fin 2) * 3072 + 3072; omega

/-- After the last point the result array is `Gflat` of the five operands. -/
theorem final (c : Dev nD) : (dats m 0 c).arrAt 5 cfg0.N = Gflat (V m c main_v0) (V m c main_v2) (V m c main_v6) (V m c main_v18) (V m c main_v19) :=
  (dats m 0 c).arrAt_eq_of_cover 5 (Gflat (V m c main_v0) (V m c main_v2) (V m c main_v6) (V m c main_v18) (V m c main_v19)) (fun t _ => flushed_eq m c t) cover

end Cert.KernelIdeal.KValue

end
-- ==== Proof.KernelValue.lean ====
/-
  What the idealized program's result buffer holds after its run: the one host line behind the region restores the
  token axes of the region's result, which is `Gflat` of the prepared operands (`result_eq`); the run's final memory
  has the result there and the nine arguments as launched (`run`).
-/
import proofs.«144425_j75041668595954_2_alg».proof.Proof.BlocksKI
import proofs.«144425_j75041668595954_2_alg».proof.Proof.FrameKI

set_option maxRecDepth 16384

noncomputable section

namespace Cert.KernelIdeal.KValue

open Cert.KernelIdeal Cert.KernelIdeal.Gen Cert.KernelIdeal.Hand Cert.KernelIdeal.Prep Cert.KernelIdeal.Payload
open Idealize.ShloMosaic Idealize.ShloMosaic.TcCoe Idealize.ShloMosaic.ValueIdx Idealize.SL.Sem Idealize.ShloMosaic.StableHlo
open Idealize.ShloMosaic.Pipeline (Dat)
open scoped BigOperators

variable (m : (ℓ : Loc nD τ sig) → Buf (Elt Ideal) ℓ) (ρ : Dev nD → PrngReg)

/-! ## (3) The host line behind the region, and the run -/

/-- The program's result buffer ends at the region's result with the token axes restored. -/
theorem result_eq (c : Dev nD) :
    (Pipeline.afterTail₀ cfgs (dats m) 0 (V0 m) [hostOps1] c main_v21 : S8x2048x3072.Idx → EReal)
      = unflat (F := Ideal) (Gflat (flatX (F := Ideal) (m ((c : Thread nD τ).loc main_arg0))) (denseT (F := Ideal) (m ((c : Thread nD τ).loc main_arg1))) (downT (F := Ideal) (m ((c : Thread nD τ).loc main_arg3)) (m ((c : Thread nD τ).loc main_arg5)) (m ((c : Thread nD τ).loc main_arg7))) (upBD (F := Ideal) (m ((c : Thread nD τ).loc main_arg4)) (m ((c : Thread nD τ).loc main_arg6)) (m ((c : Thread nD τ).loc main_arg8))) (biasRow (F := Ideal) (m ((c : Thread nD τ).loc main_arg2)))) := by
  unfold Pipeline.afterTail₀
  show StableHlo.after hostOps1 _ (Proc.devRef .tc main_v21) = _
  after_results
  rw [← V_flatX m c, ← V_denseT m c, ← V_downT m c, ← V_upBD m c, ← V_biasRow m c, ← final m c]
  exact congrArg (fun y => shapeCast S8x2048x3072 y Facts₀.shapeCasts_S16384x3072_S8x2048x3072)
    (Pipeline.withArrays_arr spec0 launch0.win.arr_inj c _ _ 5)

/-- Every weakly fair execution of the idealized program terminates; its result buffer then holds the flattened
    result with the token axes restored, and its nine arguments are as launched. -/
theorem run : θ_run defs (onTc (τ := τ) (main (F := Ideal))) ⟨m, fun _ => 0, ρ⟩ (fun r => ∀ c : Dev nD,
      r.2.mem ((c.tc : Thread nD τ).loc main_v21) = unflat (F := Ideal) (Gflat (flatX (F := Ideal) (m ((c : Thread nD τ).loc main_arg0))) (denseT (F := Ideal) (m ((c : Thread nD τ).loc main_arg1))) (downT (F := Ideal) (m ((c : Thread nD τ).loc main_arg3)) (m ((c : Thread nD τ).loc main_arg5)) (m ((c : Thread nD τ).loc main_arg7))) (upBD (F := Ideal) (m ((c : Thread nD τ).loc main_arg4)) (m ((c : Thread nD τ).loc main_arg6)) (m ((c : Thread nD τ).loc main_arg8))) (biasRow (F := Ideal) (m ((c : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).2 main_v21 (Pipeline.mem_restRefs_of main_v21 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.KValue

end
-- ==== Proof.LayoutRead.lean ====
/-
  The host lines around the kernel region, read at an index. Each of the four terms is one layout operation (after a
  format change that is the identity on extended reals):

    * flattening the two token axes keeps the row-major position, so row `b * 2048 + n` of the flat activations is token
      `(b, n)`;
    * the transposed dense weight at `(c, o)` is the weight at `(o, c)`;
    * the bias viewed as one row reads the bias at its column;
    * restoring the token axes of the flat result again keeps the row-major position.

  A reshape is read through the equality of row-major positions, which for literal extents is linear arithmetic.
-/
import proofs.«144425_j75041668595954_2_alg».proof.Proof.HostPrep
import Idealize.ShloMosaic.Lib.Pipeline.Value
import Idealize.ShloMosaic.Lib.ValueIdx
import Idealize.ShloMosaic.PureOps.Ideal.Laws

noncomputable section

open scoped BigOperators

namespace Cert.KernelIdeal.Prep

open Idealize.ShloMosaic Idealize.ShloMosaic.ValueIdx Idealize.SL.Sem Cert.KernelIdeal
open Facts₀

variable [Facts]

/-- The flat activations at row `r = b * 2048 + n`, column `c`, are the activations at token `(b, n)`, feature `c`:
    both indices have row-major position `(b * 2048 + n) * 1024 + c`. -/
theorem flatX_apply (x : Vec Ideal S8x2048x1024 .f32) (b : Fin 8) (n : Fin 2048) (c : Fin 1024) (r : Fin 16384)
    (hr : r.val = b.val * 2048 + n.val) : flatX (F := Ideal) x (ix2 r c) = x (ix3 b n c) := by
  unfold flatX
  refine shapeCast_apply x shapeCasts_S8x2048x1024_S16384x1024 (ix2 r c) (ix3 b n c) ?_
  rw [Shape.rowMajor_val_three, Shape.rowMajor_val_two]
  show (b.val * 2048 + n.val) * 1024 + c.val = r.val * 1024 + c.val
  rw [hr]

/-- The transposed dense weight at (input feature `c`, output feature `o`) is the weight at `(o, c)`; the change of
    format is the identity on extended reals. -/
theorem denseT_apply (w : Vec Ideal S3072x1024 .f32) (c : Fin 1024) (o : Fin 3072) :
    denseT (F := Ideal) w (ix2 c o) = w (ix2 o c) := by
  unfold denseT
  refine (truncf_apply _ bitsLt_bf16_f32 (ix2 c o)).trans ?_
  exact transpose_apply [1, 0] w transposes_S3072x1024_S1024x3072_1_0 (ix2 c o) (ix2 o c)
    (fun a => match a with | ⟨0, _⟩ => rfl | ⟨1, _⟩ => rfl)

/-- The bias as one row, at row `0` and column `o`, is the bias at `o`: both have row-major position `o`. -/
theorem biasRow_apply (b2 : Vec Ideal S3072 .f32) (o : Fin 3072) :
    biasRow (F := Ideal) b2 (ix2 (0 : Fin 1) o) = b2 (ix1 o) := by
  unfold biasRow
  refine shapeCast_apply b2 shapeCasts_S3072_S1x3072 (ix2 (0 : Fin 1) o) (ix1 o) ?_
  rw [Shape.rowMajor_val_one, Shape.rowMajor_val_two]
  show o.val = 0 * 3072 + o.val
  omega

/-- The result with its token axes restored, at token `(b, n)` and output feature `o`, is the flat result at row
    `r = b * 2048 + n`: both indices have row-major position `(b * 2048 + n) * 3072 + o`. -/
theorem unflat_apply (y : Vec Ideal S16384x3072 .f32) (b : Fin 8) (n : Fin 2048) (o : Fin 3072) (r : Fin 16384)
    (hr : r.val = b.val * 2048 + n.val) : unflat (F := Ideal) y (ix3 b n o) = y (ix2 r o) := by
  unfold unflat
  refine shapeCast_apply y shapeCasts_S16384x3072_S8x2048x3072 (ix3 b n o) (ix2 r o) ?_
  rw [Shape.rowMajor_val_three, Shape.rowMajor_val_two]
  show r.val * 3072 + o.val = (b.val * 2048 + n.val) * 3072 + o.val
  rw [hr]

end Cert.KernelIdeal.Prep

end
-- ==== Proof.Spec.lean ====
/-
  The mathematics both programs compute, stated once over the extended reals, with no program in sight.

  For a token (b, n) with feature row x[b,n,·] of length 1024, the projection has 3072 output features o,
  three bands of 1024 (query, key, value). Output feature o receives

      (Σ_c x[b,n,c] · w[o,c]  +  bias[o])                      -- the dense projection
    + Σ_{k<16} (Σ_c x[b,n,c] · a[k,c]) · u[d,k]                 -- the rank-16 correction of o's band,

  where (a, u) are the band's down- and up-matrices and d = o − (band offset) is the feature's place in its band.

  The second program reaches the same number through ONE rank-128 correction: the three down-matrices are stacked
  into 48 rows and padded with 80 zero rows (`AT`), the three up-matrices are laid block-diagonally into 48 rows
  and padded with 80 zero rows (`UP`), and the correction is Σ_{j<128} (Σ_c x·AT[c,j]) · UP[j,o]. Off the
  feature's own band and in the padding the factor UP[j,o] is the number zero, and zero annihilates every extended
  real, so 112 of the 128 terms vanish and the remaining 16 are the band's (`Kat_eq_Gat`, proved in the
  algebra module).
-/
import Idealize.ShloMosaic.PureOps.Ideal
import Idealize.ShloMosaic.Lib.ValueIdx

noncomputable section

namespace Cert.Spec

open Idealize.ShloMosaic Idealize.ShloMosaic.ValueIdx
open scoped BigOperators

/-- The activations, [8, 2048, 1024]. -/
abbrev SX : Shape := ⟨3, ![8, 2048, 1024]⟩
/-- The dense weight, [3072, 1024] (output feature, input feature). -/
abbrev SW : Shape := ⟨2, ![3072, 1024]⟩
/-- The bias, [3072]. -/
abbrev SB : Shape := ⟨1, ![3072]⟩
/-- A down-matrix, [16, 1024] (rank, input feature). -/
abbrev SA : Shape := ⟨2, ![16, 1024]⟩
/-- An up-matrix, [1024, 16] (feature within the band, rank). -/
abbrev SU : Shape := ⟨2, ![1024, 16]⟩
/-- The result, [8, 2048, 3072]. -/
abbrev SO : Shape := ⟨3, ![8, 2048, 3072]⟩

variable (x : SX.Idx → EReal) (w : SW.Idx → EReal) (bias : SB.Idx → EReal)
variable (aq : SA.Idx → EReal) (bq : SU.Idx → EReal) (ak : SA.Idx → EReal) (bk : SU.Idx → EReal)
variable (av : SA.Idx → EReal) (bv : SU.Idx → EReal)

/-- The dense projection of token (b, n) at output feature o, bias added. -/
def base (b : Fin 8) (n : Fin 2048) (o : Fin 3072) : EReal :=
  (∑ c : Fin 1024, x (ix3 b n c) * w (ix2 o c)) + bias (ix1 o)

/-- Coefficient k of token (b, n) in a band's rank-16 space: the row's inner product with row k of the down-matrix. -/
def down (a : SA.Idx → EReal) (b : Fin 8) (n : Fin 2048) (k : Fin 16) : EReal :=
  ∑ c : Fin 1024, x (ix3 b n c) * a (ix2 k c)

/-- A band's rank-16 correction at its feature d. -/
def lora (a : SA.Idx → EReal) (u : SU.Idx → EReal) (b : Fin 8) (n : Fin 2048) (d : Fin 1024) : EReal :=
  ∑ k : Fin 16, down x a b n k * u (ix2 d k)

/-- The result at token (b, n), output feature o: dense projection plus the correction of o's band. -/
def Gat (b : Fin 8) (n : Fin 2048) (o : Fin 3072) : EReal :=
  base x w bias b n o +
    (if h : o.val < 1024 then lora x aq bq b n ⟨o.val, h⟩
     else if h2 : o.val < 2048 then lora x ak bk b n ⟨o.val - 1024, by omega⟩
     else lora x av bv b n ⟨o.val - 2048, by have := o.isLt; omega⟩)

/-- The result array. -/
def G : SO.Idx → EReal := fun i => Gat x w bias aq bq ak bk av bv (i 0) (i 1) (i 2)

/-- The stacked, zero-padded down-matrix read as [input feature, lane]: lanes 0–15 the query band's ranks, 16–31 the
    key band's, 32–47 the value band's, 48–127 zero. -/
def AT (c : Fin 1024) (j : Fin 128) : EReal :=
  if h : j.val < 16 then aq (ix2 ⟨j.val, h⟩ c)
  else if h2 : j.val < 32 then ak (ix2 ⟨j.val - 16, by omega⟩ c)
  else if h3 : j.val < 48 then av (ix2 ⟨j.val - 32, by omega⟩ c)
  else 0

/-- The block-diagonal, zero-padded up-matrix read as [lane, output feature]: lane j of band β meets only the output
    features of band β; everything else, and lanes 48–127, is zero. -/
def UP (j : Fin 128) (o : Fin 3072) : EReal :=
  if h : j.val < 16 then
    (if ho : o.val < 1024 then bq (ix2 ⟨o.val, ho⟩ ⟨j.val, h⟩) else 0)
  else if h2 : j.val < 32 then
    (if ho : 1024 ≤ o.val ∧ o.val < 2048 then bk (ix2 ⟨o.val - 1024, by omega⟩ ⟨j.val - 16, by omega⟩) else 0)
  else if h3 : j.val < 48 then
    (if ho : 2048 ≤ o.val then bv (ix2 ⟨o.val - 2048, by have := o.isLt; omega⟩ ⟨j.val - 32, by omega⟩) else 0)
  else 0

/-- The same result as the second program reaches it: one rank-128 correction through `AT` and `UP`. -/
def Kat (b : Fin 8) (n : Fin 2048) (o : Fin 3072) : EReal :=
  base x w bias b n o +
    ∑ j : Fin 128, (∑ c : Fin 1024, x (ix3 b n c) * AT aq ak av c j) * UP bq bk bv j o

end Cert.Spec

end
-- ==== Proof.PaddedRead.lean ====
/-
  The two padded operands of the rank-128 correction, read entry by entry.

  The stacked down-matrix [a3; a5; a7] has 48 rows; padded with 80 rows of the pad value to 128 rows and
  transposed, its entry at (input feature c, lane j) is row j of the stack at column c for j < 48 and the pad
  value for j ≥ 48. Row j of a stack of three 16-row blocks is row j mod 16 of block j / 16. The pad value is the
  integer zero converted to a float, which is the number zero. A change of format is the identity on extended reals.

  The block-diagonal up-matrix has 48 rows and 3072 columns: row band β (rows 16β … 16β+15) is the row
  [P0 | P1 | P2] of three [16, 1024] blocks, of which block β is the band's up-matrix transposed and the other two
  are blocks of the constant zero. Every entry is multiplied by the constant one (x · 1 = x), and 80 rows of the
  pad value are appended.
-/
import proofs.«144425_j75041668595954_2_alg».proof.Proof.HostPrep
import proofs.«144425_j75041668595954_2_alg».proof.Proof.Spec
import Idealize.ShloMosaic.Lib.ValueIdx
import Idealize.ShloMosaic.Lib.Pipeline.Value
import Idealize.ShloMosaic.Lib.KernelVsHost
import Idealize.ShloMosaic.PureOps.Ideal.Laws

noncomputable section

namespace Cert.KernelIdeal.Prep

open Idealize.ShloMosaic Idealize.ShloMosaic.ValueIdx Idealize.SL.Sem Cert.KernelIdeal
open Facts₀
open scoped BigOperators

variable [Facts]

/-- The pad value, the integer zero converted to a float, is the number zero. -/
theorem padZero_apply (i : S_.Idx) : padZero (F := Ideal) i = 0 := by
  show (Scalar.sitofp .f32 0#32 : Ideal .f32) = 0
  exact sitofp_zero

/-- A stack along axis 0 of three blocks of 16 rows, read at row j < 48 and column c: block j / 16 at row
    j mod 16, same column. -/
theorem stack3_apply {α : Type} {N : Nat} (P0 P1 P2 : (⟨2, ![16, N]⟩ : Shape).Idx → α)
    (h : Shape.Concatenates [(⟨2, ![16, N]⟩ : Shape), ⟨2, ![16, N]⟩, ⟨2, ![16, N]⟩] ⟨2, ![48, N]⟩ 0)
    (j : Nat) (hj : j < 48) (c : Fin N) :
    concatenate (⟨2, ![48, N]⟩ : Shape) 0 [⟨⟨2, ![16, N]⟩, P0⟩, ⟨⟨2, ![16, N]⟩, P1⟩, ⟨⟨2, ![16, N]⟩, P2⟩] h
        (ix2 (⟨j, hj⟩ : Fin 48) c)
      = if h1 : j < 16 then P0 (ix2 (⟨j, h1⟩ : Fin 16) c)
        else if h2 : j < 32 then P1 (ix2 (⟨j - 16, by omega⟩ : Fin 16) c)
        else P2 (ix2 (⟨j - 32, by omega⟩ : Fin 16) c) := by
  by_cases h1 : j < 16
  · rw [dif_pos h1]
    exact concatenate_apply_piece 0 [⟨⟨2, ![16, N]⟩, P0⟩, ⟨⟨2, ![16, N]⟩, P1⟩, ⟨⟨2, ![16, N]⟩, P2⟩] h
      (ix2 (⟨j, hj⟩ : Fin 48) c) 0 (by simp) ⟨2, ![16, N]⟩ P0 rfl rfl 0 rfl
      (ix2 (⟨j, h1⟩ : Fin 16) c)
      (fun b hb => by
        match b with
        | ⟨0, _⟩ => exact absurd rfl hb
        | ⟨1, _⟩ => rfl)
      (by show 0 + j = j; omega)
  · rw [dif_neg h1]
    by_cases h2 : j < 32
    · rw [dif_pos h2]
      exact concatenate_apply_piece 0 [⟨⟨2, ![16, N]⟩, P0⟩, ⟨⟨2, ![16, N]⟩, P1⟩, ⟨⟨2, ![16, N]⟩, P2⟩] h
        (ix2 (⟨j, hj⟩ : Fin 48) c) 1 (by simp) ⟨2, ![16, N]⟩ P1 rfl rfl 16 rfl
        (ix2 (⟨j - 16, by omega⟩ : Fin 16) c)
        (fun b hb => by
          match b with
          | ⟨0, _⟩ => exact absurd rfl hb
          | ⟨1, _⟩ => rfl)
        (by show 16 + (j - 16) = j; omega)
    · rw [dif_neg h2]
      exact concatenate_apply_piece 0 [⟨⟨2, ![16, N]⟩, P0⟩, ⟨⟨2, ![16, N]⟩, P1⟩, ⟨⟨2, ![16, N]⟩, P2⟩] h
        (ix2 (⟨j, hj⟩ : Fin 48) c) 2 (by simp) ⟨2, ![16, N]⟩ P2 rfl rfl 32 rfl
        (ix2 (⟨j - 32, by omega⟩ : Fin 16) c)
        (fun b hb => by
          match b with
          | ⟨0, _⟩ => exact absurd rfl hb
          | ⟨1, _⟩ => rfl)
        (by show 32 + (j - 32) = j; omega)

/-- The stacked, padded, transposed down-matrix at (input feature c, lane j). The transpose swaps the two
    coordinates; lanes below 48 lie inside the padded operand and read the stack, whose row j is row j mod 16 of
    block j / 16; lanes from 48 on lie in the high padding and read the pad value zero. -/
theorem downT_apply (a3 a5 a7 : Vec Ideal S16x1024 .f32) (c : Fin 1024) (j : Fin 128) :
    downT (F := Ideal) a3 a5 a7 (ix2 c j) = Cert.Spec.AT a3 a5 a7 c j := by
  unfold downT
  rw [truncf_apply]
  refine (transpose_apply _ _ transposes_S128x1024_S1024x128_1_0 (ix2 c j) (ix2 j c) (fun b => by
    match b with
    | ⟨0, _⟩ => rfl
    | ⟨1, _⟩ => rfl)).trans ?_
  unfold Cert.Spec.AT
  by_cases h48 : j.val < 48
  · refine (pad_apply_of_inside _ _ _ _ _ pads_S48x1024_S128x1024_0800_000 h_S_ (ix2 j c)
      (ix2 (⟨j.val, h48⟩ : Fin 48) c) (fun a => by
        match a with
        | ⟨0, _⟩ => show j.val = 0 + j.val * (0 + 1); omega
        | ⟨1, _⟩ => show c.val = 0 + c.val * (0 + 1); omega)).trans ?_
    unfold downCat
    refine (stack3_apply a3 a5 a7 concatenates_S16x1024_S16x1024_S16x1024_S48x1024_d0 j.val h48 c).trans ?_
    by_cases h16 : j.val < 16
    · rw [dif_pos h16, dif_pos h16]
    · rw [dif_neg h16, dif_neg h16]
      by_cases h32 : j.val < 32
      · rw [dif_pos h32, dif_pos h32]
      · rw [dif_neg h32, dif_neg h32, dif_pos h48]
  · have h16 : ¬ j.val < 16 := by omega
    have h32 : ¬ j.val < 32 := by omega
    rw [dif_neg h16, dif_neg h32, dif_neg h48]
    refine (pad_apply_of_not_inside _ _ _ _ _ pads_S48x1024_S128x1024_0800_000 h_S_ (ix2 j c) (0 : Fin 2)
      (fun hin => h48 ?_)).trans (padZero_apply _)
    have e := hin.2.2
    have e' : (j.val - 0) / (0 + 1) < 48 := e
    omega

/-- The word 0x3F800000 read as a binary32 float: sign bit 0, exponent field 127 (the bias), fraction 0 — the
    number (2^23 + 0) · 2^(127 − 127 − 23) = 1. -/
theorem ofBits_one_f32 : Ideal.ofBits .f32 0x3F800000#32 = 1 := by
  show Ideal.ieee 8 23 (0x3F800000#32 : BitVec 32) = 1
  have hs : ((0x3F800000#32 : BitVec 32).extractLsb' (8 + 23) 1 == 1#1) = false := by decide
  have he : ((0x3F800000#32 : BitVec 32).extractLsb' 23 8).toNat = 127 := by decide
  have hf : ((0x3F800000#32 : BitVec 32).extractLsb' 0 23).toNat = 0 := by decide
  unfold Ideal.ieee
  simp only [hs, he, hf]
  norm_num

/-- A block of the constant zero reads the number zero at every index. -/
theorem zeroBlock_apply (i : S16x1024.Idx) : zeroBlock (F := Ideal) i = 0 := by
  unfold zeroBlock
  refine (broadcastInDim_apply _ bcast_S_S16x1024 _ i ix0 (fun a => a.elim0)).trans ?_
  exact (constant_apply _ _).trans Ideal.ofBits_zero_f32

/-- The scale, a [48, 3072] array of the constant one, reads the number one at every index. -/
theorem scale_apply (i : S48x3072.Idx) :
    broadcastInDim S48x3072 ![] bcast_S_S48x3072 (constant (F := Ideal) S_ .f32 0x3F800000#32) i = 1 := by
  refine (broadcastInDim_apply _ bcast_S_S48x3072 _ i ix0 (fun a => a.elim0)).trans ?_
  exact (constant_apply _ _).trans ofBits_one_f32

/-- An up-matrix transposed, read at (rank k, feature d), is the up-matrix at (d, k). -/
theorem upT_apply (u : Vec Ideal S1024x16 .f32) (k : Fin 16) (d : Fin 1024) :
    upT (F := Ideal) u (ix2 k d) = u (ix2 d k) := by
  unfold upT
  exact transpose_apply _ _ transposes_S1024x16_S16x1024_1_0 (ix2 k d) (ix2 d k) (fun b => by
    match b with
    | ⟨0, _⟩ => rfl
    | ⟨1, _⟩ => rfl)

/-- A row [P0 | P1 | P2] of three [16, 1024] blocks laid side by side along axis 1, read at (k, o): block
    o / 1024 at column o mod 1024, same row. -/
theorem row3_apply {α : Type} (P0 P1 P2 : S16x1024.Idx → α)
    (h : Shape.Concatenates [S16x1024, S16x1024, S16x1024] S16x3072 1) (k : Fin 16) (o : Fin 3072) :
    concatenate S16x3072 1 [⟨S16x1024, P0⟩, ⟨S16x1024, P1⟩, ⟨S16x1024, P2⟩] h (ix2 k o)
      = if h1 : o.val < 1024 then P0 (ix2 k (⟨o.val, h1⟩ : Fin 1024))
        else if h2 : o.val < 2048 then P1 (ix2 k (⟨o.val - 1024, by omega⟩ : Fin 1024))
        else P2 (ix2 k (⟨o.val - 2048, by have := o.isLt; omega⟩ : Fin 1024)) := by
  have ho := o.isLt
  by_cases h1 : o.val < 1024
  · rw [dif_pos h1]
    exact concatenate_apply_piece 1 [⟨S16x1024, P0⟩, ⟨S16x1024, P1⟩, ⟨S16x1024, P2⟩] h (ix2 k o) 0 (by simp)
      S16x1024 P0 rfl rfl 0 rfl (ix2 k (⟨o.val, h1⟩ : Fin 1024))
      (fun b hb => by
        match b with
        | ⟨0, _⟩ => rfl
        | ⟨1, _⟩ => exact absurd rfl hb)
      (by show 0 + o.val = o.val; omega)
  · rw [dif_neg h1]
    by_cases h2 : o.val < 2048
    · rw [dif_pos h2]
      exact concatenate_apply_piece 1 [⟨S16x1024, P0⟩, ⟨S16x1024, P1⟩, ⟨S16x1024, P2⟩] h (ix2 k o) 1 (by simp)
        S16x1024 P1 rfl rfl 1024 rfl (ix2 k (⟨o.val - 1024, by omega⟩ : Fin 1024))
        (fun b hb => by
          match b with
          | ⟨0, _⟩ => rfl
          | ⟨1, _⟩ => exact absurd rfl hb)
        (by show 1024 + (o.val - 1024) = o.val; omega)
    · rw [dif_neg h2]
      exact concatenate_apply_piece 1 [⟨S16x1024, P0⟩, ⟨S16x1024, P1⟩, ⟨S16x1024, P2⟩] h (ix2 k o) 2 (by simp)
        S16x1024 P2 rfl rfl 2048 rfl (ix2 k (⟨o.val - 2048, by omega⟩ : Fin 1024))
        (fun b hb => by
          match b with
          | ⟨0, _⟩ => rfl
          | ⟨1, _⟩ => exact absurd rfl hb)
        (by show 2048 + (o.val - 2048) = o.val; omega)

/-- The block-diagonal arrangement read at (lane j < 48, output feature o): row band j / 16 is the row of three
    blocks whose block j / 16 is that band's up-matrix transposed and whose other blocks are zero, so the entry is
    the band's up-matrix at (o mod 1024, j mod 16) when o lies in the band and zero otherwise. -/
theorem upCat_apply (b4 b6 b8 : Vec Ideal S1024x16 .f32) (j : Fin 128) (hj : j.val < 48) (o : Fin 3072) :
    upCat (F := Ideal) b4 b6 b8 (ix2 (⟨j.val, hj⟩ : Fin 48) o) = Cert.Spec.UP b4 b6 b8 j o := by
  have ho3 := o.isLt
  unfold upCat
  refine (stack3_apply _ _ _ concatenates_S16x3072_S16x3072_S16x3072_S48x3072_d0 j.val hj o).trans ?_
  unfold Cert.Spec.UP
  by_cases h16 : j.val < 16
  · rw [dif_pos h16, dif_pos h16]
    refine (row3_apply _ _ _ concatenates_S16x1024_S16x1024_S16x1024_S16x3072_d1 (⟨j.val, h16⟩ : Fin 16) o).trans ?_
    by_cases ho : o.val < 1024
    · rw [dif_pos ho, dif_pos ho]
      exact upT_apply b4 _ _
    · rw [dif_neg ho, dif_neg ho]
      by_cases ho2 : o.val < 2048
      · rw [dif_pos ho2]
        exact zeroBlock_apply _
      · rw [dif_neg ho2]
        exact zeroBlock_apply _
  · rw [dif_neg h16, dif_neg h16]
    by_cases h32 : j.val < 32
    · rw [dif_pos h32, dif_pos h32]
      refine (row3_apply _ _ _ concatenates_S16x1024_S16x1024_S16x1024_S16x3072_d1
        (⟨j.val - 16, by omega⟩ : Fin 16) o).trans ?_
      by_cases ho : o.val < 1024
      · rw [dif_pos ho, dif_neg (fun hc : 1024 ≤ o.val ∧ o.val < 2048 => absurd ho (by omega))]
        exact zeroBlock_apply _
      · rw [dif_neg ho]
        by_cases ho2 : o.val < 2048
        · rw [dif_pos ho2, dif_pos (⟨by omega, ho2⟩ : 1024 ≤ o.val ∧ o.val < 2048)]
          exact upT_apply b6 _ _
        · rw [dif_neg ho2, dif_neg (fun hc : 1024 ≤ o.val ∧ o.val < 2048 => ho2 hc.2)]
          exact zeroBlock_apply _
    · rw [dif_neg h32, dif_neg h32, dif_pos hj]
      refine (row3_apply _ _ _ concatenates_S16x1024_S16x1024_S16x1024_S16x3072_d1
        (⟨j.val - 32, by omega⟩ : Fin 16) o).trans ?_
      by_cases ho : o.val < 1024
      · rw [dif_pos ho, dif_neg (fun hc : 2048 ≤ o.val => absurd ho (by omega))]
        exact zeroBlock_apply _
      · rw [dif_neg ho]
        by_cases ho2 : o.val < 2048
        · rw [dif_pos ho2, dif_neg (fun hc : 2048 ≤ o.val => absurd ho2 (by omega))]
          exact zeroBlock_apply _
        · rw [dif_neg ho2, dif_pos (by omega : 2048 ≤ o.val)]
          exact upT_apply b8 _ _

/-- The block-diagonal up-matrix, scaled by one, padded, at (lane j, output feature o). Lanes below 48 lie inside
    the padded operand and read the block-diagonal arrangement times one; lanes from 48 on read the pad value
    zero. -/
theorem upBD_apply (b4 b6 b8 : Vec Ideal S1024x16 .f32) (j : Fin 128) (o : Fin 3072) :
    upBD (F := Ideal) b4 b6 b8 (ix2 j o) = Cert.Spec.UP b4 b6 b8 j o := by
  unfold upBD
  rw [truncf_apply]
  by_cases h48 : j.val < 48
  · refine (pad_apply_of_inside _ _ _ _ _ pads_S48x3072_S128x3072_0800_000 h_S_ (ix2 j o)
      (ix2 (⟨j.val, h48⟩ : Fin 48) o) (fun a => by
        match a with
        | ⟨0, _⟩ => show j.val = 0 + j.val * (0 + 1); omega
        | ⟨1, _⟩ => show o.val = 0 + o.val * (0 + 1); omega)).trans ?_
    rw [mulf_apply, scale_apply, mul_one]
    exact upCat_apply b4 b6 b8 j h48 o
  · have h16 : ¬ j.val < 16 := by omega
    have h32 : ¬ j.val < 32 := by omega
    unfold Cert.Spec.UP
    rw [dif_neg h16, dif_neg h32, dif_neg h48]
    refine (pad_apply_of_not_inside _ _ _ _ _ pads_S48x3072_S128x3072_0800_000 h_S_ (ix2 j o) (0 : Fin 2)
      (fun hin => h48 ?_)).trans (padZero_apply _)
    have e : (j.val - 0) / (0 + 1) < 48 := hin.2.2
    omega

end Cert.KernelIdeal.Prep

end
-- ==== Proof.Algebra.lean ====
/-
  The two arrangements of the low-rank correction agree.

  The second arrangement sums 128 lanes j of (Σ_c x·AT[c,j]) · UP[j,o]. For an output feature o of a given band
  the factor UP[j,o] is the number zero for every lane outside the band's window of sixteen lanes (and in the
  padding), and zero annihilates every extended real, the infinities included; so the sum over the 128 lanes is
  the sum over the band's sixteen lanes, and on those lanes AT and UP are the band's down- and up-matrices.
  Only the commutative-monoid laws of the extended reals and x * 0 = 0 are used: no distributivity, no
  cancellation.
-/
import proofs.«144425_j75041668595954_2_alg».proof.Proof.Spec

noncomputable section

namespace Cert.Spec

open Idealize.ShloMosaic Idealize.ShloMosaic.ValueIdx
open scoped BigOperators

/-- A sum over `Fin N` of a function that vanishes outside the window `[off, off + W)` is the sum over the
    window, indexed by `Fin W`: the window is the image of the injection `k ↦ off + k`, and the terms off the
    image are zero. -/
theorem sum_window {M : Type*} [AddCommMonoid M] (N off W : ℕ) (hoff : off + W ≤ N) (f : Fin N → M)
    (hz : ∀ j : Fin N, ¬(off ≤ j.val ∧ j.val < off + W) → f j = 0) :
    ∑ j : Fin N, f j = ∑ k : Fin W, f ⟨off + k.val, by have := k.isLt; omega⟩ := by
  let e : Fin W ↪ Fin N :=
    ⟨fun k => ⟨off + k.val, by have := k.isLt; omega⟩, fun a b h => Fin.ext (by
      have := congrArg Fin.val h
      simp only at this
      omega)⟩
  have hmap : ∑ j ∈ Finset.univ.map e, f j = ∑ k : Fin W, f (e k) := Finset.sum_map Finset.univ e f
  have hsub : ∑ j ∈ Finset.univ.map e, f j = ∑ j : Fin N, f j := by
    refine Finset.sum_subset (Finset.subset_univ _) fun j _ hj => hz j fun hw => hj ?_
    rw [Finset.mem_map]
    exact ⟨⟨j.val - off, by omega⟩, Finset.mem_univ _, Fin.ext (by show off + (j.val - off) = j.val; omega)⟩
  exact hsub.symm.trans hmap

variable (x : SX.Idx → EReal) (w : SW.Idx → EReal) (bias : SB.Idx → EReal)
variable (aq : SA.Idx → EReal) (bq : SU.Idx → EReal) (ak : SA.Idx → EReal) (bk : SU.Idx → EReal)
variable (av : SA.Idx → EReal) (bv : SU.Idx → EReal)

/-- On lanes 0–15 the stacked down-matrix is the query band's. -/
theorem AT_q (c : Fin 1024) (j : Fin 128) (k : Fin 16) (hj : j.val = 0 + k.val) :
    AT aq ak av c j = aq (ix2 k c) := by
  unfold AT
  rw [dif_pos (show j.val < 16 by have := k.isLt; omega)]
  exact congrArg (fun t => aq (ix2 t c)) (Fin.ext (by show j.val = k.val; omega))

/-- On lanes 16–31 the stacked down-matrix is the key band's. -/
theorem AT_k (c : Fin 1024) (j : Fin 128) (k : Fin 16) (hj : j.val = 16 + k.val) :
    AT aq ak av c j = ak (ix2 k c) := by
  unfold AT
  rw [dif_neg (show ¬j.val < 16 by omega), dif_pos (show j.val < 32 by have := k.isLt; omega)]
  exact congrArg (fun t => ak (ix2 t c)) (Fin.ext (by show j.val - 16 = k.val; omega))

/-- On lanes 32–47 the stacked down-matrix is the value band's. -/
theorem AT_v (c : Fin 1024) (j : Fin 128) (k : Fin 16) (hj : j.val = 32 + k.val) :
    AT aq ak av c j = av (ix2 k c) := by
  unfold AT
  rw [dif_neg (show ¬j.val < 16 by omega), dif_neg (show ¬j.val < 32 by omega),
    dif_pos (show j.val < 48 by have := k.isLt; omega)]
  exact congrArg (fun t => av (ix2 t c)) (Fin.ext (by show j.val - 32 = k.val; omega))

/-- Lanes 0–15 meet a query-band feature in the query band's up-matrix. -/
theorem UP_q (j : Fin 128) (o : Fin 3072) (k : Fin 16) (hj : j.val = 0 + k.val) (ho : o.val < 1024) :
    UP bq bk bv j o = bq (ix2 ⟨o.val, ho⟩ k) := by
  unfold UP
  rw [dif_pos (show j.val < 16 by have := k.isLt; omega), dif_pos ho]
  exact congrArg (fun t => bq (ix2 ⟨o.val, ho⟩ t)) (Fin.ext (by show j.val = k.val; omega))

/-- Lanes 16–31 meet a key-band feature in the key band's up-matrix. -/
theorem UP_k (j : Fin 128) (o : Fin 3072) (k : Fin 16) (hj : j.val = 16 + k.val) (h1 : ¬o.val < 1024)
    (h2 : o.val < 2048) :
    UP bq bk bv j o = bk (ix2 ⟨o.val - 1024, by omega⟩ k) := by
  unfold UP
  rw [dif_neg (show ¬j.val < 16 by omega), dif_pos (show j.val < 32 by have := k.isLt; omega),
    dif_pos (show 1024 ≤ o.val ∧ o.val < 2048 from ⟨by omega, h2⟩)]
  exact congrArg (fun t => bk (ix2 ⟨o.val - 1024, by omega⟩ t)) (Fin.ext (by show j.val - 16 = k.val; omega))

/-- Lanes 32–47 meet a value-band feature in the value band's up-matrix. -/
theorem UP_v (j : Fin 128) (o : Fin 3072) (k : Fin 16) (hj : j.val = 32 + k.val) (h2 : ¬o.val < 2048) :
    UP bq bk bv j o = bv (ix2 ⟨o.val - 2048, by have := o.isLt; omega⟩ k) := by
  unfold UP
  rw [dif_neg (show ¬j.val < 16 by omega), dif_neg (show ¬j.val < 32 by omega),
    dif_pos (show j.val < 48 by have := k.isLt; omega), dif_pos (show 2048 ≤ o.val by omega)]
  exact congrArg (fun t => bv (ix2 ⟨o.val - 2048, by have := o.isLt; omega⟩ t))
    (Fin.ext (by show j.val - 32 = k.val; omega))

/-- Off lanes 0–15 a query-band feature meets only zeros. -/
theorem UP_off_q (j : Fin 128) (o : Fin 3072) (ho : o.val < 1024) (hj : ¬(0 ≤ j.val ∧ j.val < 0 + 16)) :
    UP bq bk bv j o = 0 := by
  unfold UP
  split_ifs <;> first | rfl | (exfalso; omega)

/-- Off lanes 16–31 a key-band feature meets only zeros. -/
theorem UP_off_k (j : Fin 128) (o : Fin 3072) (h1 : ¬o.val < 1024) (h2 : o.val < 2048)
    (hj : ¬(16 ≤ j.val ∧ j.val < 16 + 16)) :
    UP bq bk bv j o = 0 := by
  unfold UP
  split_ifs <;> first | rfl | (exfalso; omega)

/-- Off lanes 32–47 a value-band feature meets only zeros. -/
theorem UP_off_v (j : Fin 128) (o : Fin 3072) (h2 : ¬o.val < 2048) (hj : ¬(32 ≤ j.val ∧ j.val < 32 + 16)) :
    UP bq bk bv j o = 0 := by
  unfold UP
  split_ifs <;> first | rfl | (exfalso; omega)

/-- **The rank-128 arrangement is the banded rank-16 one.** Both sides add the same dense projection; of the
    128 lanes only the sixteen of the feature's own band carry a non-zero up-factor, the other terms are
    `· * 0 = 0`, and on the band's lanes the stacked matrices are the band's. -/
theorem Kat_eq_Gat (x : SX.Idx → EReal) (w : SW.Idx → EReal) (bias : SB.Idx → EReal) (aq : SA.Idx → EReal)
    (bq : SU.Idx → EReal) (ak : SA.Idx → EReal) (bk : SU.Idx → EReal) (av : SA.Idx → EReal) (bv : SU.Idx → EReal)
    (b : Fin 8) (n : Fin 2048) (o : Fin 3072) :
    Kat x w bias aq bq ak bk av bv b n o = Gat x w bias aq bq ak bk av bv b n o := by
  unfold Kat Gat
  refine congrArg (fun t => base x w bias b n o + t) ?_
  by_cases h1 : o.val < 1024
  · rw [dif_pos h1]
    refine (sum_window 128 0 16 (by norm_num) _ fun j hj => ?_).trans ?_
    · rw [UP_off_q bq bk bv j o h1 hj, mul_zero]
    · unfold lora down
      refine Finset.sum_congr rfl fun k _ => ?_
      refine congrArg₂ (fun s t : EReal => s * t) ?_ (UP_q bq bk bv _ o k rfl h1)
      exact Finset.sum_congr rfl fun c _ => congrArg (fun t => x (ix3 b n c) * t) (AT_q aq ak av c _ k rfl)
  · rw [dif_neg h1]
    by_cases h2 : o.val < 2048
    · rw [dif_pos h2]
      refine (sum_window 128 16 16 (by norm_num) _ fun j hj => ?_).trans ?_
      · rw [UP_off_k bq bk bv j o h1 h2 hj, mul_zero]
      · unfold lora down
        refine Finset.sum_congr rfl fun k _ => ?_
        refine congrArg₂ (fun s t : EReal => s * t) ?_ (UP_k bq bk bv _ o k rfl h1 h2)
        exact Finset.sum_congr rfl fun c _ => congrArg (fun t => x (ix3 b n c) * t) (AT_k aq ak av c _ k rfl)
    · rw [dif_neg h2]
      refine (sum_window 128 32 16 (by norm_num) _ fun j hj => ?_).trans ?_
      · rw [UP_off_v bq bk bv j o h2 hj, mul_zero]
      · unfold lora down
        refine Finset.sum_congr rfl fun k _ => ?_
        refine congrArg₂ (fun s t : EReal => s * t) ?_ (UP_v bq bk bv _ o k rfl h2)
        exact Finset.sum_congr rfl fun c _ => congrArg (fun t => x (ix3 b n c) * t) (AT_v aq ak av c _ k rfl)

end Cert.Spec

end
-- ==== Proof.Bridge.lean ====
/-
  From the flattened result back to the specified one.

  The kernel region computes, over the flattened operands, the array whose row r at output feature q is

      (Σ_c X[r,c] · Wt[c,q] + Br[0,q]) + Σ_{j<128} (Σ_c X[r,c] · At[c,j]) · Ub[j,q].

  When the operands are the host-prepared ones — the activations with their token axes flattened, the dense weight
  transposed, the stacked padded down-matrix, the block-diagonal padded up-matrix, the bias as a row — every factor is
  read back through its layout: row b · 2048 + n of the flattened activations is token (b, n); the transposed weight
  at (c, o) is the weight at (o, c); the padded operands are the closed forms AT and UP; the bias row at (0, o) is the
  bias at o. Term by term under the sums this is the rank-128 form of the result, which equals the specified
  three-band form because the 112 lanes outside a feature's band carry the factor zero. Restoring the token axes reads
  row b · 2048 + n of the flat result at token (b, n).
-/
import proofs.«144425_j75041668595954_2_alg».proof.Proof.FlatSpec
import proofs.«144425_j75041668595954_2_alg».proof.Proof.LayoutRead
import proofs.«144425_j75041668595954_2_alg».proof.Proof.PaddedRead
import proofs.«144425_j75041668595954_2_alg».proof.Proof.Algebra

noncomputable section

namespace Cert.KernelIdeal.Prep

open Idealize.ShloMosaic Idealize.ShloMosaic.ValueIdx Idealize.SL.Sem Cert.KernelIdeal
open Facts₀
open scoped BigOperators

variable [Facts]

/-- Row r = b · 2048 + n of the flat result over the host-prepared operands, at output feature o, is the rank-128
    form of the result at token (b, n): each factor under the sums is read back through its layout (the flattened
    activations, the transposed weight, the two padded operands, the bias row), and the summands then agree term by
    term. -/
theorem GflatAt_prepared (x : Vec Ideal S8x2048x1024 .f32) (w : Vec Ideal S3072x1024 .f32)
    (bias : Vec Ideal S3072 .f32) (aq : Vec Ideal S16x1024 .f32) (bq : Vec Ideal S1024x16 .f32)
    (ak : Vec Ideal S16x1024 .f32) (bk : Vec Ideal S1024x16 .f32) (av : Vec Ideal S16x1024 .f32)
    (bv : Vec Ideal S1024x16 .f32) (b : Fin 8) (n : Fin 2048) (o : Fin 3072) (r : Fin 16384)
    (hr : r.val = b.val * 2048 + n.val) :
    GflatAt (flatX (F := Ideal) x) (denseT (F := Ideal) w) (downT (F := Ideal) aq ak av)
        (upBD (F := Ideal) bq bk bv) (biasRow (F := Ideal) bias) r o
      = Cert.Spec.Kat x w bias aq bq ak bk av bv b n o := by
  unfold GflatAt Cert.Spec.Kat Cert.Spec.base
  refine congrArg₂ (· + ·) (congrArg₂ (· + ·) (Finset.sum_congr rfl fun c _ => ?_) (biasRow_apply bias o))
    (Finset.sum_congr rfl fun j _ => ?_)
  · rw [flatX_apply x b n c r hr, denseT_apply]
  · rw [upBD_apply]
    refine congrArg (· * Cert.Spec.UP bq bk bv j o) (Finset.sum_congr rfl fun c _ => ?_)
    rw [flatX_apply x b n c r hr, downT_apply]

/-- The flat result over the host-prepared operands, with its token axes restored, is the specified result: token
    (b, n) reads row b · 2048 + n, that row is the rank-128 form, and the rank-128 form equals the three-band form. -/
theorem flat_is_G (x : Vec Ideal S8x2048x1024 .f32) (w : Vec Ideal S3072x1024 .f32) (bias : Vec Ideal S3072 .f32)
    (aq : Vec Ideal S16x1024 .f32) (bq : Vec Ideal S1024x16 .f32) (ak : Vec Ideal S16x1024 .f32)
    (bk : Vec Ideal S1024x16 .f32) (av : Vec Ideal S16x1024 .f32) (bv : Vec Ideal S1024x16 .f32) :
    unflat (F := Ideal) (Gflat (flatX (F := Ideal) x) (denseT (F := Ideal) w) (downT (F := Ideal) aq ak av)
        (upBD (F := Ideal) bq bk bv) (biasRow (F := Ideal) bias))
      = Cert.Spec.G x w bias aq bq ak bk av bv := by
  funext i
  obtain ⟨b, n, o, rfl⟩ : ∃ (b : Fin 8) (n : Fin 2048) (o : Fin 3072), i = ix3 b n o := ⟨i 0, i 1, i 2, eq_ix3 i⟩
  have hb := b.isLt
  have hn := n.isLt
  refine (unflat_apply _ b n o (⟨b.val * 2048 + n.val, by omega⟩ : Fin 16384) rfl).trans ?_
  show GflatAt (flatX (F := Ideal) x) (denseT (F := Ideal) w) (downT (F := Ideal) aq ak av)
      (upBD (F := Ideal) bq bk bv) (biasRow (F := Ideal) bias) (⟨b.val * 2048 + n.val, by omega⟩ : Fin 16384) o
    = Cert.Spec.Gat x w bias aq bq ak bk av bv b n o
  exact (GflatAt_prepared x w bias aq bq ak bk av bv b n o _ rfl).trans
    (Cert.Spec.Kat_eq_Gat x w bias aq bq ak bk av bv b n o)

end Cert.KernelIdeal.Prep

end
-- ==== Proof.RefValue.lean ====
/-
  The reference program computes the specification `G`.

  Read at an index (b, n, o), the reference's result is
      ((Σ_c x[b,n,c] · w[o,c]) + bias[o]) + piece(o),
  where piece(o) is the element of the concatenation of the three bands' corrections that the coordinate o selects:
  band q at o for o < 1024, band k at o − 1024 for 1024 ≤ o < 2048, band v at o − 2048 otherwise. Each band's
  correction is (Σ_{k<16} (Σ_c x[b,n,c] · a[k,c]) · u[d,k]) · 1.0; the word 0x3F800000 denotes the number one, and
  `t * 1 = t` for every extended real, so the scaling drops out. The two broadcasts of the bias read bias[o]; the
  contractions read their operands at the coordinates the dimension numbers name.
-/
import proofs.«144425_j75041668595954_2_alg».proof.Proof.Gen.ReferenceIdeal.Read
import proofs.«144425_j75041668595954_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The single-precision word 0x3F800000 (sign 0, exponent field 127, fraction 0) denotes the number one. -/
theorem ofBits_one_f32 : Ideal.ofBits .f32 0x3F800000#32 = 1 := by
  simp [Ideal.ofBits, Ideal.ieee]
  rw [← EReal.coe_mul]
  norm_num

/-! ## Where the operations read their operands -/

/-- The dense contraction reads the activations at (b, n, c) … -/
theorem lidx_v0 (b : Fin 8) (n : Fin 2048) (o : Fin 3072) (c : Fin 1024) :
    lidx_main_v0 (ix3 b n o) c = ix3 b n c :=
  funext fun a => Fin.ext (by match a with | ⟨0, _⟩ => rfl | ⟨1, _⟩ => rfl | ⟨2, _⟩ => rfl)
/-- … and the weight at (o, c). -/
theorem ridx_v0 (b : Fin 8) (n : Fin 2048) (o : Fin 3072) (c : Fin 1024) :
    ridx_main_v0 (ix3 b n o) c = ix2 o c :=
  funext fun a => Fin.ext (by match a with | ⟨0, _⟩ => rfl | ⟨1, _⟩ => rfl)
/-- The bias, broadcast twice, is read at o. -/
theorem idx_v1_v2 (b : Fin 8) (n : Fin 2048) (o : Fin 3072) :
    idx_main_v1 (idx_main_v2 (ix3 b n o)) = ix1 o :=
  funext fun a => Fin.ext (by match a with | ⟨0, _⟩ => rfl)

/-- A band's down-contraction reads the activations at (b, n, c) … -/
theorem lidx_v4 (b : Fin 8) (n : Fin 2048) (k : Fin 16) (c : Fin 1024) :
    lidx_main_v4 (ix3 b n k) c = ix3 b n c :=
  funext fun a => Fin.ext (by match a with | ⟨0, _⟩ => rfl | ⟨1, _⟩ => rfl | ⟨2, _⟩ => rfl)
/-- … and the down-matrix at (k, c). -/
theorem ridx_v4 (b : Fin 8) (n : Fin 2048) (k : Fin 16) (c : Fin 1024) :
    ridx_main_v4 (ix3 b n k) c = ix2 k c :=
  funext fun a => Fin.ext (by match a with | ⟨0, _⟩ => rfl | ⟨1, _⟩ => rfl)
/-- A band's up-contraction reads the coefficients at (b, n, k) … -/
theorem lidx_v5 (b : Fin 8) (n : Fin 2048) (d : Fin 1024) (k : Fin 16) :
    lidx_main_v5 (ix3 b n d) k = ix3 b n k :=
  funext fun a => Fin.ext (by match a with | ⟨0, _⟩ => rfl | ⟨1, _⟩ => rfl | ⟨2, _⟩ => rfl)
/-- … and the up-matrix at (d, k). -/
theorem ridx_v5 (b : Fin 8) (n : Fin 2048) (d : Fin 1024) (k : Fin 16) :
    ridx_main_v5 (ix3 b n d) k = ix2 d k :=
  funext fun a => Fin.ext (by match a with | ⟨0, _⟩ => rfl | ⟨1, _⟩ => rfl)

theorem lidx_v8 (b : Fin 8) (n : Fin 2048) (k : Fin 16) (c : Fin 1024) :
    lidx_main_v8 (ix3 b n k) c = ix3 b n c :=
  funext fun a => Fin.ext (by match a with | ⟨0, _⟩ => rfl | ⟨1, _⟩ => rfl | ⟨2, _⟩ => rfl)
theorem ridx_v8 (b : Fin 8) (n : Fin 2048) (k : Fin 16) (c : Fin 1024) :
    ridx_main_v8 (ix3 b n k) c = ix2 k c :=
  funext fun a => Fin.ext (by match a with | ⟨0, _⟩ => rfl | ⟨1, _⟩ => rfl)
theorem lidx_v9 (b : Fin 8) (n : Fin 2048) (d : Fin 1024) (k : Fin 16) :
    lidx_main_v9 (ix3 b n d) k = ix3 b n k :=
  funext fun a => Fin.ext (by match a with | ⟨0, _⟩ => rfl | ⟨1, _⟩ => rfl | ⟨2, _⟩ => rfl)
theorem ridx_v9 (b : Fin 8) (n : Fin 2048) (d : Fin 1024) (k : Fin 16) :
    ridx_main_v9 (ix3 b n d) k = ix2 d k :=
  funext fun a => Fin.ext (by match a with | ⟨0, _⟩ => rfl | ⟨1, _⟩ => rfl)

theorem lidx_v12 (b : Fin 8) (n : Fin 2048) (k : Fin 16) (c : Fin 1024) :
    lidx_main_v12 (ix3 b n k) c = ix3 b n c :=
  funext fun a => Fin.ext (by match a with | ⟨0, _⟩ => rfl | ⟨1, _⟩ => rfl | ⟨2, _⟩ => rfl)
theorem ridx_v12 (b : Fin 8) (n : Fin 2048) (k : Fin 16) (c : Fin 1024) :
    ridx_main_v12 (ix3 b n k) c = ix2 k c :=
  funext fun a => Fin.ext (by match a with | ⟨0, _⟩ => rfl | ⟨1, _⟩ => rfl)
theorem lidx_v13 (b : Fin 8) (n : Fin 2048) (d : Fin 1024) (k : Fin 16) :
    lidx_main_v13 (ix3 b n d) k = ix3 b n k :=
  funext fun a => Fin.ext (by match a with | ⟨0, _⟩ => rfl | ⟨1, _⟩ => rfl | ⟨2, _⟩ => rfl)
theorem ridx_v13 (b : Fin 8) (n : Fin 2048) (d : Fin 1024) (k : Fin 16) :
    ridx_main_v13 (ix3 b n d) k = ix2 d k :=
  funext fun a => Fin.ext (by match a with | ⟨0, _⟩ => rfl | ⟨1, _⟩ => rfl)

/-! ## The dense projection -/

/-- The reference's dense stage at (b, n, o) is Σ_c x[b,n,c] · w[o,c] + bias[o]. -/
theorem dense_apply (x0 : Vec Ideal S8x2048x1024 .f32) (x1 : Vec Ideal S3072x1024 .f32) (x2 : Vec Ideal S3072 .f32)
    (b : Fin 8) (n : Fin 2048) (o : Fin 3072) :
    val_main_v3 (F := Ideal) x0 x1 x2 (ix3 b n o) = Cert.Spec.base x0 x1 x2 b n o := by
  rw [val_main_v3_apply, val_main_v0_apply, val_main_v2_apply, val_main_v1_apply, Ideal.addf_def]
  unfold Cert.Spec.base
  rw [idx_v1_v2]
  refine congrArg (fun t => t + x2 (ix1 o)) ?_
  refine Finset.sum_congr rfl fun c _ => ?_
  rw [lidx_v0, ridx_v0]

/-! ## A band's correction -/

/-- The query band's stage at (b, n, d): Σ_k (Σ_c x[b,n,c] · a[k,c]) · u[d,k], the scaling by one dropped. -/
theorem band_q_apply (x0 : Vec Ideal S8x2048x1024 .f32) (x3 : Vec Ideal S16x1024 .f32) (x4 : Vec Ideal S1024x16 .f32)
    (b : Fin 8) (n : Fin 2048) (d : Fin 1024) :
    val_main_v7 (F := Ideal) x0 x3 x4 (ix3 b n d) = Cert.Spec.lora x0 x3 x4 b n d := by
  rw [val_main_v7_apply, val_main_v5_apply, val_main_v6_apply, val_main_cst_apply, Ideal.mulf_def, Ideal.ofBits_def,
    ofBits_one_f32, mul_one]
  unfold Cert.Spec.lora Cert.Spec.down
  refine Finset.sum_congr rfl fun k _ => ?_
  rw [lidx_v5, ridx_v5, val_main_v4_apply]
  refine congrArg (fun t => t * x4 (ix2 d k)) ?_
  refine Finset.sum_congr rfl fun c _ => ?_
  rw [lidx_v4, ridx_v4]

/-- The key band's stage at (b, n, d). -/
theorem band_k_apply (x0 : Vec Ideal S8x2048x1024 .f32) (x5 : Vec Ideal S16x1024 .f32) (x6 : Vec Ideal S1024x16 .f32)
    (b : Fin 8) (n : Fin 2048) (d : Fin 1024) :
    val_main_v11 (F := Ideal) x0 x5 x6 (ix3 b n d) = Cert.Spec.lora x0 x5 x6 b n d := by
  rw [val_main_v11_apply, val_main_v9_apply, val_main_v10_apply, val_main_cst_0_apply, Ideal.mulf_def, Ideal.ofBits_def,
    ofBits_one_f32, mul_one]
  unfold Cert.Spec.lora Cert.Spec.down
  refine Finset.sum_congr rfl fun k _ => ?_
  rw [lidx_v9, ridx_v9, val_main_v8_apply]
  refine congrArg (fun t => t * x6 (ix2 d k)) ?_
  refine Finset.sum_congr rfl fun c _ => ?_
  rw [lidx_v8, ridx_v8]

/-- The value band's stage at (b, n, d). -/
theorem band_v_apply (x0 : Vec Ideal S8x2048x1024 .f32) (x7 : Vec Ideal S16x1024 .f32) (x8 : Vec Ideal S1024x16 .f32)
    (b : Fin 8) (n : Fin 2048) (d : Fin 1024) :
    val_main_v15 (F := Ideal) x0 x7 x8 (ix3 b n d) = Cert.Spec.lora x0 x7 x8 b n d := by
  rw [val_main_v15_apply, val_main_v13_apply, val_main_v14_apply, val_main_cst_1_apply, Ideal.mulf_def, Ideal.ofBits_def,
    ofBits_one_f32, mul_one]
  unfold Cert.Spec.lora Cert.Spec.down
  refine Finset.sum_congr rfl fun k _ => ?_
  rw [lidx_v13, ridx_v13, val_main_v12_apply]
  refine congrArg (fun t => t * x8 (ix2 d k)) ?_
  refine Finset.sum_congr rfl fun c _ => ?_
  rw [lidx_v12, ridx_v12]

/-! ## The concatenation of the three bands, read at an index -/

/-- For o < 1024 the concatenation reads its first piece, the query band, at feature o. -/
theorem concat_q_apply (x0 : Vec Ideal S8x2048x1024 .f32) (x3 : Vec Ideal S16x1024 .f32) (x4 : Vec Ideal S1024x16 .f32)
    (x5 : Vec Ideal S16x1024 .f32) (x6 : Vec Ideal S1024x16 .f32) (x7 : Vec Ideal S16x1024 .f32)
    (x8 : Vec Ideal S1024x16 .f32) (b : Fin 8) (n : Fin 2048) (o : Fin 3072) (h1 : o.val < 1024) :
    val_main_v16 (F := Ideal) x0 x3 x4 x5 x6 x7 x8 (ix3 b n o)
      = val_main_v7 (F := Ideal) x0 x3 x4 (ix3 b n ⟨o.val, h1⟩) := by
  unfold val_main_v16
  exact concatenate_apply_piece _ _ _ (ix3 b n o) 0 (by show (0 : Nat) < 3; decide) S8x2048x1024 (val_main_v7 (F := Ideal) x0 x3 x4) rfl rfl
    0 rfl (ix3 b n ⟨o.val, h1⟩)
    (fun a ha => by
      match a with
      | ⟨0, _⟩ => rfl
      | ⟨1, _⟩ => rfl
      | ⟨2, _⟩ => exact absurd rfl ha)
    (by show 0 + o.val = o.val; omega)

/-- For 1024 ≤ o < 2048 it reads its second piece, the key band, at feature o − 1024. -/
theorem concat_k_apply (x0 : Vec Ideal S8x2048x1024 .f32) (x3 : Vec Ideal S16x1024 .f32) (x4 : Vec Ideal S1024x16 .f32)
    (x5 : Vec Ideal S16x1024 .f32) (x6 : Vec Ideal S1024x16 .f32) (x7 : Vec Ideal S16x1024 .f32)
    (x8 : Vec Ideal S1024x16 .f32) (b : Fin 8) (n : Fin 2048) (o : Fin 3072) (h1 : ¬o.val < 1024) (h2 : o.val < 2048) :
    val_main_v16 (F := Ideal) x0 x3 x4 x5 x6 x7 x8 (ix3 b n o)
      = val_main_v11 (F := Ideal) x0 x5 x6 (ix3 b n ⟨o.val - 1024, by omega⟩) := by
  unfold val_main_v16
  exact concatenate_apply_piece _ _ _ (ix3 b n o) 1 (by show (1 : Nat) < 3; decide) S8x2048x1024 (val_main_v11 (F := Ideal) x0 x5 x6) rfl rfl
    1024 rfl (ix3 b n ⟨o.val - 1024, by omega⟩)
    (fun a ha => by
      match a with
      | ⟨0, _⟩ => rfl
      | ⟨1, _⟩ => rfl
      | ⟨2, _⟩ => exact absurd rfl ha)
    (by show 1024 + (o.val - 1024) = o.val; omega)

/-- For 2048 ≤ o it reads its third piece, the value band, at feature o − 2048. -/
theorem concat_v_apply (x0 : Vec Ideal S8x2048x1024 .f32) (x3 : Vec Ideal S16x1024 .f32) (x4 : Vec Ideal S1024x16 .f32)
    (x5 : Vec Ideal S16x1024 .f32) (x6 : Vec Ideal S1024x16 .f32) (x7 : Vec Ideal S16x1024 .f32)
    (x8 : Vec Ideal S1024x16 .f32) (b : Fin 8) (n : Fin 2048) (o : Fin 3072) (h2 : ¬o.val < 2048) :
    val_main_v16 (F := Ideal) x0 x3 x4 x5 x6 x7 x8 (ix3 b n o)
      = val_main_v15 (F := Ideal) x0 x7 x8 (ix3 b n ⟨o.val - 2048, by have := o.isLt; omega⟩) := by
  unfold val_main_v16
  exact concatenate_apply_piece _ _ _ (ix3 b n o) 2 (by show (2 : Nat) < 3; decide) S8x2048x1024 (val_main_v15 (F := Ideal) x0 x7 x8) rfl rfl
    2048 rfl (ix3 b n ⟨o.val - 2048, by have := o.isLt; omega⟩)
    (fun a ha => by
      match a with
      | ⟨0, _⟩ => rfl
      | ⟨1, _⟩ => rfl
      | ⟨2, _⟩ => exact absurd rfl ha)
    (by show 2048 + (o.val - 2048) = o.val; omega)

/-! ## The reference is the specification -/

/-- **The reference's result is `G`**: at (b, n, o) the outer sum adds the dense projection and the piece of the
    concatenation that o selects, which is the correction of o's band at o's place in the band. -/
theorem ref_is_G (x0 : Vec Ideal Cert.ReferenceIdeal.S8x2048x1024 .f32) (x1 : Vec Ideal Cert.ReferenceIdeal.S3072x1024 .f32)
    (x2 : Vec Ideal Cert.ReferenceIdeal.S3072 .f32) (x3 : Vec Ideal Cert.ReferenceIdeal.S16x1024 .f32)
    (x4 : Vec Ideal Cert.ReferenceIdeal.S1024x16 .f32) (x5 : Vec Ideal Cert.ReferenceIdeal.S16x1024 .f32)
    (x6 : Vec Ideal Cert.ReferenceIdeal.S1024x16 .f32) (x7 : Vec Ideal Cert.ReferenceIdeal.S16x1024 .f32)
    (x8 : Vec Ideal Cert.ReferenceIdeal.S1024x16 .f32) :
    Cert.ReferenceIdeal.Read.val_main_v17 (F := Ideal) x0 x1 x2 x3 x4 x5 x6 x7 x8
      = Cert.Spec.G x0 x1 x2 x3 x4 x5 x6 x7 x8 := by
  funext i
  obtain ⟨b, n, o, rfl⟩ : ∃ (b : Fin 8) (n : Fin 2048) (o : Fin 3072), i = ix3 b n o := ⟨i 0, i 1, i 2, eq_ix3 i⟩
  show _ = Cert.Spec.Gat x0 x1 x2 x3 x4 x5 x6 x7 x8 b n o
  rw [val_main_v17_apply, Ideal.addf_def, dense_apply]
  unfold Cert.Spec.Gat
  refine congrArg (fun t => Cert.Spec.base x0 x1 x2 b n o + t) ?_
  by_cases h1 : o.val < 1024
  · rw [dif_pos h1]
    exact (concat_q_apply x0 x3 x4 x5 x6 x7 x8 b n o h1).trans (band_q_apply x0 x3 x4 b n _)
  · rw [dif_neg h1]
    by_cases h2 : o.val < 2048
    · rw [dif_pos h2]
      exact (concat_k_apply x0 x3 x4 x5 x6 x7 x8 b n o h1 h2).trans (band_k_apply x0 x5 x6 b n _)
    · rw [dif_neg h2]
      exact (concat_v_apply x0 x3 x4 x5 x6 x7 x8 b n o h2).trans (band_v_apply x0 x7 x8 b n _)

end Cert.ReferenceIdeal.RefValue

end
-- ==== Proof.lean ====
/-
  The certificate's claim, assembled.

  The program multiplies each of 16384 token rows by a dense [1024 → 3072] weight, adds a bias, and adds three rank-16
  corrections, one per band of 1024 output features. The kernel computes the corrections through ONE rank-128 product:
  the three down-matrices stacked into 48 lanes and zero-padded to 128, the three up-matrices laid block-diagonally and
  zero-padded likewise, the scale (the number one) folded into the up-matrix. Over the extended reals a product with
  the number zero is zero whatever the other factor, so the 112 lanes that meet a zero entry contribute nothing and the
  remaining 16 are the band's own correction; no finiteness of the inputs is used.

  Frames: both kernel programs by the hand frame of one pipelined region between host lines (`Hand.frame`), the
  reference by its run. The idealization rewrote nothing, so `preserves` is trivial. The value claim: the kernel's run
  ends with its result at the flattened function of the prepared operands, token axes restored (`KValue.run`), which
  is the specification `Spec.G` of the arguments (`flat_is_G`); the reference's run ends with its result at its
  operations' term, which is `Spec.G` too (`ref_is_G`).
-/
import proofs.«144425_j75041668595954_2_alg».proof.Defs
import proofs.«144425_j75041668595954_2_alg».proof.Proof.Gen.Kernel
import proofs.«144425_j75041668595954_2_alg».proof.Proof.Gen.KernelIdeal
import proofs.«144425_j75041668595954_2_alg».proof.Proof.Gen.ReferenceIdeal
import proofs.«144425_j75041668595954_2_alg».proof.Proof.Gen.ReferenceIdeal.Run
import proofs.«144425_j75041668595954_2_alg».proof.Proof.Gen.ReferenceIdeal.Read
import proofs.«144425_j75041668595954_2_alg».proof.Proof.Gen.Pre_finite_inputs
import proofs.«144425_j75041668595954_2_alg».proof.Proof.FrameK
import proofs.«144425_j75041668595954_2_alg».proof.Proof.FrameKI
import proofs.«144425_j75041668595954_2_alg».proof.Proof.KernelValue
import proofs.«144425_j75041668595954_2_alg».proof.Proof.Bridge
import proofs.«144425_j75041668595954_2_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both idealized programs end with their result at `Spec.G` of the (agreeing) arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Prep.flat_is_G _ _ _ _ _ _ _ _ _), (h c).2⟩)
      (Cert.KernelIdeal.KValue.run m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7, a8⟩ := hagree c
    rw [(h c).1, Cert.ReferenceIdeal.Read.val_main_v17_eq, Cert.ReferenceIdeal.RefValue.ref_is_G, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
